-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000 : Shape := ⟨1, ![1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S64 .f32) (main_arg7 : FVec F S64 .f32) (main_arg8 : FVec F S64x128 .f32) (main_arg9 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S1000000 32) (main_arg2 : IVec S1000000 32) (main_arg3 : FVec F S1000000 .f32) (main_arg4 : FVec F S128x64 .f32) (main_arg5 : FVec F S64 .f32) (main_arg6 : FVec F S64 .f32) (main_arg7 : FVec F S64 .f32) (main_arg8 : FVec F S64x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x128 : Shape := ⟨2, ![50000, 128]⟩
abbrev S1000000 : Shape := ⟨1, ![1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1050000 : Shape := ⟨1, ![1050000]⟩
abbrev S_ : Shape := ⟨0, ![]⟩
abbrev S1050000x1 : Shape := ⟨2, ![1050000, 1]⟩
abbrev S50000x64 : Shape := ⟨2, ![50000, 64]⟩
abbrev S5000x128 : Shape := ⟨2, ![5000, 128]⟩
abbrev S5000x64 : Shape := ⟨2, ![5000, 64]⟩
abbrev S1050000x64 : Shape := ⟨2, ![1050000, 64]⟩
abbrev S1x64 : Shape := ⟨2, ![1, 64]⟩
abbrev S1050000x128 : Shape := ⟨2, ![1050000, 128]⟩
abbrev S1x128 : Shape := ⟨2, ![1, 128]⟩

abbrev nBuf : Space → Nat
  | .hbm => 120
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S50000, .i32⟩
  | .hbm, ⟨11, _⟩ => ⟨S1050000, .i32⟩
  | .hbm, ⟨12, _⟩ => ⟨S1050000, .i32⟩
  | .hbm, ⟨13, _⟩ => ⟨S_, .f32⟩
  | .hbm, ⟨14, _⟩ => ⟨S50000, .f32⟩
  | .hbm, ⟨15, _⟩ => ⟨S1050000, .f32⟩
  | .hbm, ⟨16, _⟩ => ⟨S_, .f32⟩
  | .hbm, ⟨17, _⟩ => ⟨S50000, .f32⟩
  | .hbm, ⟨18, _⟩ => ⟨S1050000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1050000, .i32⟩
  | .hbm, ⟨30, _⟩ => ⟨S1050000, .i1⟩
  | .hbm, ⟨31, _⟩ => ⟨S_, .i32⟩
  | .hbm, ⟨32, _⟩ => ⟨S1050000, .i32⟩
  | .hbm, ⟨33, _⟩ => ⟨S1050000, .i32⟩
  | .hbm, ⟨34, _⟩ => ⟨S1050000, .i32⟩
  | .hbm, ⟨35, _⟩ => ⟨S1050000x1, .i32⟩
  | .hbm, ⟨36, _⟩ => ⟨S1050000, .f32⟩
  | .hbm, ⟨37, _⟩ => ⟨S1050000, .f32⟩
  | .hbm, ⟨38, _⟩ => ⟨S_, .i32⟩
  | .hbm, ⟨39, _⟩ => ⟨S1050000, .i32⟩
  | .hbm, ⟨40, _⟩ => ⟨S1050000, .i1⟩
  | .hbm, ⟨41, _⟩ => ⟨S_, .i32⟩
  | .hbm, ⟨42, _⟩ => ⟨S1050000, .i32⟩
  | .hbm, ⟨43, _⟩ => ⟨S1050000, .i32⟩
  | .hbm, ⟨44, _⟩ => ⟨S1050000, .i32⟩
  | .hbm, ⟨45, _⟩ => ⟨S1050000x1, .i32⟩
  | .hbm, ⟨46, _⟩ => ⟨S1050000, .f32⟩
  | .hbm, ⟨47, _⟩ => ⟨S1050000, .f32⟩
  | .hbm, ⟨48, _⟩ => ⟨S50000x64, .f32⟩
  | .hbm, ⟨49, _⟩ => ⟨S1050000x1, .f32⟩
  | .hbm, ⟨50, _⟩ => ⟨S_, .i32⟩
  | .hbm, ⟨51, _⟩ => ⟨S1050000, .i32⟩
  | .hbm, ⟨52, _⟩ => ⟨S1050000, .i1⟩
  | .hbm, ⟨53, _⟩ => ⟨S_, .i32⟩
  | .hbm, ⟨54, _⟩ => ⟨S1050000, .i32⟩
  | .hbm, ⟨55, _⟩ => ⟨S1050000, .i32⟩
  | .hbm, ⟨56, _⟩ => ⟨S1050000, .i32⟩
  | .hbm, ⟨57, _⟩ => ⟨S1050000x1, .i32⟩
  | .hbm, ⟨58, _⟩ => ⟨S1050000x64, .f32⟩
  | .hbm, ⟨59, _⟩ => ⟨S1050000x64, .f32⟩
  | .hbm, ⟨60, _⟩ => ⟨S1050000x64, .f32⟩
  | .hbm, ⟨61, _⟩ => ⟨S_, .f32⟩
  | .hbm, ⟨62, _⟩ => ⟨S50000x64, .f32⟩
  | .hbm, ⟨63, _⟩ => ⟨S1050000x1, .i32⟩
  | .hbm, ⟨64, _⟩ => ⟨S50000x64, .f32⟩
  | .hbm, ⟨65, _⟩ => ⟨S_, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .i32⟩
  | .hbm, ⟨72, _⟩ => ⟨S_, .f32⟩
  | .hbm, ⟨73, _⟩ => ⟨S64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S50000x64, .f32⟩
  | .hbm, ⟨100, _⟩ => ⟨S50000x128, .f32⟩
  | .hbm, ⟨101, _⟩ => ⟨S1050000x1, .f32⟩
  | .hbm, ⟨102, _⟩ => ⟨S_, .i32⟩
  | .hbm, ⟨103, _⟩ => ⟨S1050000, .i32⟩
  | .hbm, ⟨104, _⟩ => ⟨S1050000, .i1⟩
  | .hbm, ⟨105, _⟩ => ⟨S_, .i32⟩
  | .hbm, ⟨106, _⟩ => ⟨S1050000, .i32⟩
  | .hbm, ⟨107, _⟩ => ⟨S1050000, .i32⟩
  | .hbm, ⟨108, _⟩ => ⟨S1050000, .i32⟩
  | .hbm, ⟨109, _⟩ => ⟨S1050000x1, .i32⟩
  | .hbm, ⟨110, _⟩ => ⟨S1050000x128, .f32⟩
  | .hbm, ⟨111, _⟩ => ⟨S1050000x128, .f32⟩
  | .hbm, ⟨112, _⟩ => ⟨S1050000x128, .f32⟩
  | .hbm, ⟨113, _⟩ => ⟨S_, .f32⟩
  | .hbm, ⟨114, _⟩ => ⟨S50000x128, .f32⟩
  | .hbm, ⟨115, _⟩ => ⟨S1050000x1, .i32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_cst_3 : Ref sig .tc := ⟨.hbm, 88, rfl⟩
abbrev main_call1_v12 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_12 : Ref sig .tc := ⟨.hbm, 102, rfl⟩
abbrev main_v55 : Ref sig .tc := ⟨.hbm, 103, rfl⟩
abbrev main_v56 : Ref sig .tc := ⟨.hbm, 104, rfl⟩
abbrev main_c_13 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_14 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S1000000_S50000_S1050000_d0 : Shape.Concatenates [S1000000, S50000] S1050000 0
  bcast_S_S50000 : S_.BroadcastsInDim S50000 (![] : Fin 0 → Fin S50000.rank)
  bcast_S1050000_S1050000x1_0 : S1050000.BroadcastsInDim S1050000x1 (![0] : Fin 1 → Fin S1050000x1.rank)
  bcast_S_S1050000 : S_.BroadcastsInDim S1050000 (![] : Fin 0 → Fin S1050000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1050000x1_S1050000x64_0_1 : S1050000x1.BroadcastsInDim S1050000x64 (![0, 1] : Fin 2 → Fin S1050000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1050000x1_S1050000x128_0_1 : S1050000x1.BroadcastsInDim S1050000x128 (![0, 1] : Fin 2 → Fin S1050000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S5000x128_S128x64_S5000x64_1_0_0_1_n_n_wf : DotDims.WF S5000x128 S128x64 S5000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S5000x64_S64x128_S5000x128_1_0_0_1_n_n_wf : DotDims.WF S5000x64 S64x128 S5000x128 [1] [0] [0] [1] [] []
  gather_S50000x128_S1050000x1_S1050000x128_1_0_n_n_0_1_1128_wf : GatherDims.WF S50000x128 S1050000x1 S1050000x128 [1] [0] [] [0] [] 1 ![1, 128]
  scatter_S50000x128_S1050000x1_S1050000x128_1_0_0_1_wf : ScatterDims.WF S50000x128 S1050000x1 S1050000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1050000x1_S1050000x128_1_0_n_n_0_1_1128 : GatherDims S50000x128 S1050000x1 S1050000x128 where
  offsetDims := [1]
  collapsedSliceDims := [0]
  operandBatchingDims := []
  startIndicesBatchingDims := []
  startIndexMap := [0]
  indexVectorDim := 1
  sliceSizes := ![1, 128]
  wf := gather_S50000x128_S1050000x1_S1050000x128_1_0_n_n_0_1_1128_wf
def scatter_S50000x128_S1050000x1_S1050000x128_1_0_0_1 : ScatterDims S50000x128 S1050000x1 S1050000x128 where
  updateWindowDims := [1]
  insertedWindowDims := [0]
  scatterDimsToOperandDims := [0]
  indexVectorDim := 1
  wf := scatter_S50000x128_S1050000x1_S1050000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S1000000 : Shape := ⟨1, ![1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1050000 : Shape := ⟨1, ![1050000]⟩
abbrev S_ : Shape := ⟨0, ![]⟩
abbrev S1050000x1 : Shape := ⟨2, ![1050000, 1]⟩
abbrev S50000x64 : Shape := ⟨2, ![50000, 64]⟩
abbrev S1050000x64 : Shape := ⟨2, ![1050000, 64]⟩
abbrev S1x64 : Shape := ⟨2, ![1, 64]⟩
abbrev S1050000x128 : Shape := ⟨2, ![1050000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S1000000, .i32⟩
  | 2 => ⟨S1000000, .i32⟩
  | 3 => ⟨S1000000, .f32⟩
  | 4 => ⟨S128x64, .f32⟩
  | 5 => ⟨S64, .f32⟩
  | 6 => ⟨S64, .f32⟩
  | 7 => ⟨S64, .f32⟩
  | 8 => ⟨S64x128, .f32⟩
  | 9 => ⟨S128, .f32⟩
  | 10 => ⟨S50000, .i32⟩
  | 11 => ⟨S1050000, .i32⟩
  | 12 => ⟨S1050000, .i32⟩
  | 13 => ⟨S_, .f32⟩
  | 14 => ⟨S50000, .f32⟩
  | 15 => ⟨S1050000, .f32⟩
  | 16 => ⟨S_, .f32⟩
  | 17 => ⟨S50000, .f32⟩
  | 18 => ⟨S1050000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1050000, .i32⟩
  | 30 => ⟨S1050000, .i1⟩
  | 31 => ⟨S_, .i32⟩
  | 32 => ⟨S1050000, .i32⟩
  | 33 => ⟨S1050000, .i32⟩
  | 34 => ⟨S1050000, .i32⟩
  | 35 => ⟨S1050000x1, .i32⟩
  | 36 => ⟨S1050000, .f32⟩
  | 37 => ⟨S1050000, .f32⟩
  | 38 => ⟨S_, .i32⟩
  | 39 => ⟨S1050000, .i32⟩
  | 40 => ⟨S1050000, .i1⟩
  | 41 => ⟨S_, .i32⟩
  | 42 => ⟨S1050000, .i32⟩
  | 43 => ⟨S1050000, .i32⟩
  | 44 => ⟨S1050000, .i32⟩
  | 45 => ⟨S1050000x1, .i32⟩
  | 46 => ⟨S1050000, .f32⟩
  | 47 => ⟨S1050000, .f32⟩
  | 48 => ⟨S50000x64, .f32⟩
  | 49 => ⟨S1050000x1, .f32⟩
  | 50 => ⟨S_, .i32⟩
  | 51 => ⟨S1050000, .i32⟩
  | 52 => ⟨S1050000, .i1⟩
  | 53 => ⟨S_, .i32⟩
  | 54 => ⟨S1050000, .i32⟩
  | 55 => ⟨S1050000, .i32⟩
  | 56 => ⟨S1050000, .i32⟩
  | 57 => ⟨S1050000x1, .i32⟩
  | 58 => ⟨S1050000x64, .f32⟩
  | 59 => ⟨S1050000x64, .f32⟩
  | 60 => ⟨S1050000x64, .f32⟩
  | 61 => ⟨S_, .f32⟩
  | 62 => ⟨S50000x64, .f32⟩
  | 63 => ⟨S1050000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S_, .f32⟩
  | 100 => ⟨S64, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S50000x128, .f32⟩
  | 116 => ⟨S1050000x1, .f32⟩
  | 117 => ⟨S_, .i32⟩
  | 118 => ⟨S1050000, .i32⟩
  | 119 => ⟨S1050000, .i1⟩
  | 120 => ⟨S_, .i32⟩
  | 121 => ⟨S1050000, .i32⟩
  | 122 => ⟨S1050000, .i32⟩
  | 123 => ⟨S1050000, .i32⟩
  | 124 => ⟨S1050000x1, .i32⟩
  | 125 => ⟨S1050000x128, .f32⟩
  | 126 => ⟨S1050000x128, .f32⟩
  | 127 => ⟨S1050000x128, .f32⟩
  | _ => ⟨S50000x128, .f32⟩

abbrev hbmTy0_1 (i : Nat) : BufTy := match i % 128 with
  | 0 => ⟨S_, .f32⟩
  | 1 => ⟨S50000x128, .f32⟩
  | 2 => ⟨S1050000x1, .i32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_12 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call2_cst : Ref sig .tc := ⟨.hbm, 112, rfl⟩
abbrev main_call2_v0 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_13 : Ref sig .tc := ⟨.hbm, 117, rfl⟩
abbrev main_v67 : Ref sig .tc := ⟨.hbm, 118, rfl⟩
abbrev main_v68 : Ref sig .tc := ⟨.hbm, 119, rfl⟩
abbrev main_c_14 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_15 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩

abbrev nD : Nat := 1
abbrev τ : Topo := Topo.v7x

variable {F : FTy → Type} [FloatOps F]

class Facts₀ : Prop where
  concatenates_S1000000_S50000_S1050000_d0 : Shape.Concatenates [S1000000, S50000] S1050000 0
  bcast_S_S50000 : S_.BroadcastsInDim S50000 (![] : Fin 0 → Fin S50000.rank)
  bcast_S1050000_S1050000x1_0 : S1050000.BroadcastsInDim S1050000x1 (![0] : Fin 1 → Fin S1050000x1.rank)
  bcast_S_S1050000 : S_.BroadcastsInDim S1050000 (![] : Fin 0 → Fin S1050000.rank)
  bcast_S1050000x1_S1050000x64_0_1 : S1050000x1.BroadcastsInDim S1050000x64 (![0, 1] : Fin 2 → Fin S1050000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1050000x1_S1050000x128_0_1 : S1050000x1.BroadcastsInDim S1050000x128 (![0, 1] : Fin 2 → Fin S1050000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S50000x128_S128x64_S50000x64_1_0_0_1_n_n_wf : DotDims.WF S50000x128 S128x64 S50000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S50000x64_S64x128_S50000x128_1_0_0_1_n_n_wf : DotDims.WF S50000x64 S64x128 S50000x128 [1] [0] [0] [1] [] []
  gather_S50000x128_S1050000x1_S1050000x128_1_0_n_n_0_1_1128_wf : GatherDims.WF S50000x128 S1050000x1 S1050000x128 [1] [0] [] [0] [] 1 ![1, 128]
  scatter_S50000x128_S1050000x1_S1050000x128_1_0_0_1_wf : ScatterDims.WF S50000x128 S1050000x1 S1050000x128 [1] [0] [0] 1

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1050000x1_S1050000x128_1_0_n_n_0_1_1128 : GatherDims S50000x128 S1050000x1 S1050000x128 where
  offsetDims := [1]
  collapsedSliceDims := [0]
  operandBatchingDims := []
  startIndicesBatchingDims := []
  startIndexMap := [0]
  indexVectorDim := 1
  sliceSizes := ![1, 128]
  wf := gather_S50000x128_S1050000x1_S1050000x128_1_0_n_n_0_1_1128_wf
def scatter_S50000x128_S1050000x1_S1050000x128_1_0_0_1 : ScatterDims S50000x128 S1050000x1 S1050000x128 where
  updateWindowDims := [1]
  insertedWindowDims := [0]
  scatterDimsToOperandDims := [0]
  indexVectorDim := 1
  wf := scatter_S50000x128_S1050000x1_S1050000x128_1_0_0_1_wf

class Facts : Prop extends Facts₀ where

variable [Facts]
-- ==== Proof.Spec.lean ====
/-
  The mathematics both programs compute, written once over whole arrays at the ideal instance.

  A graph convolution layer here is: a dense product `P = X · W`, then for every edge `e` (the given edges followed by one
  self-loop per node) the row `P[src e]` scaled by the edge's normalisation `n e`, summed into row `dst e`:
  `conv P = Σ_e [dst e = ·] n e · P[src e]`. The normalisation is `n e = d^{-1/2}[src e] · w e · d^{-1/2}[dst e]` with
  `d = Σ_e [dst e = ·] w e` the weighted in-degree (and `0` in place of `d^{-1/2}` where `d ≤ 0`).
  Between the two layers sits a batch normalisation over the 50000 rows (mean and biased variance per column), an
  affine map and a clip at zero. The two programs differ only there: one adds the first layer's bias before taking the
  statistics (`bnR`), the other takes the statistics of the unbiased rows and corrects the mean afterwards (`bnK`).
-/
import proofs.«114351_j46617575030954_2_alg».proof.ReferenceIdeal
import proofs.«114351_j46617575030954_2_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal
open Cert.ReferenceIdeal.Facts₀ Cert.ReferenceIdeal.Facts

/-! ## The edge list with its self-loops, and the normalisation -/

/-- An endpoint list followed by the self-loops `0, 1, …, 49999`. -/
def withLoops (a : IVec S1000000 32) : IVec S1050000 32 :=
  concatenate S1050000 0 [⟨S1000000, a⟩, ⟨S50000, iotaInDim S50000 32 0⟩] concatenates_S1000000_S50000_S1050000_d0

/-- The edge weights followed by weight one for every self-loop. -/
def edgeW (a : FVec Ideal S1000000 .f32) : FVec Ideal S1050000 .f32 :=
  concatenate S1050000 0 [⟨S1000000, a⟩, ⟨S50000, broadcastInDim S50000 ![] bcast_S_S50000 (constant S_ .f32 0x3F800000#32)⟩]
    concatenates_S1000000_S50000_S1050000_d0

/-- A list of node numbers as a one-column table of start indices. -/
def col (v : IVec S1050000 32) : IVec S1050000x1 32 := broadcastInDim S1050000x1 ![0] bcast_S1050000_S1050000x1_0 v

/-- A negative node number counted from the end (`v + 50000`), any other as it is. -/
def wrap (v : IVec S1050000 32) : IVec S1050000 32 :=
  select (cmpi .slt v (broadcastInDim S1050000 ![] bcast_S_S1050000 (constantI S_ 32 0#32)))
    (addi v (broadcastInDim S1050000 ![] bcast_S_S1050000 (constantI S_ 32 50000#32))) v

/-- The weighted in-degree: the weights summed at their destination node. -/
def deg (d : IVec S1050000 32) (w : FVec Ideal S1050000 .f32) : FVec Ideal S50000 .f32 :=
  Host.scatterAdd scatter_S50000_S1050000x1_S1050000_n_0_0_1
    (broadcastInDim S50000 ![] bcast_S_S50000 (constant S_ .f32 0x00000000#32)) (col d) w

/-- `g^{-1/2}` where `g > 0`, zero elsewhere. -/
def dinv (g : FVec Ideal S50000 .f32) : FVec Ideal S50000 .f32 :=
  select (cmpf .ogt g (broadcastInDim S50000 ![] bcast_S_S50000 (constant S_ .f32 0x00000000#32))) (Host.rsqrt g)
    (broadcastInDim S50000 ![] bcast_S_S50000 (id (constant S_ .f32 0x00000000#32)))

/-- The symmetric normalisation of every edge: `d^{-1/2}[src] · w · d^{-1/2}[dst]`. -/
def norm (s d : IVec S1050000 32) (w : FVec Ideal S1050000 .f32) : FVec Ideal S1050000 .f32 :=
  mulf (mulf (Host.gather gather_S50000_S1050000x1_S1050000_n_0_n_n_0_1_1 (dinv (deg d w)) (col (wrap s))) w)
    (Host.gather gather_S50000_S1050000x1_S1050000_n_0_n_n_0_1_1 (dinv (deg d w)) (col (wrap d)))

/-! ## The two aggregations -/

/-- The first layer's aggregation: row `src e` of `P` scaled by `n e`, summed into row `dst e`. -/
def conv64 (s d : IVec S1050000 32) (n : FVec Ideal S1050000 .f32) (P : FVec Ideal S50000x64 .f32) : FVec Ideal S50000x64 .f32 :=
  Host.scatterAdd scatter_S50000x64_S1050000x1_S1050000x64_1_0_0_1
    (broadcastInDim S50000x64 ![] bcast_S_S50000x64 (constant S_ .f32 0x00000000#32)) (col d)
    (mulf (broadcastInDim S1050000x64 ![0, 1] bcast_S1050000x1_S1050000x64_0_1
        (broadcastInDim S1050000x1 ![0] bcast_S1050000_S1050000x1_0 n))
      (Host.gather gather_S50000x64_S1050000x1_S1050000x64_1_0_n_n_0_1_164 P (col (wrap s))))

/-- The second layer's aggregation, with the output bias `b` added to every row. -/
def out128 (s d : IVec S1050000 32) (n : FVec Ideal S1050000 .f32) (P : FVec Ideal S50000x128 .f32) (b : FVec Ideal S128 .f32) :
    FVec Ideal S50000x128 .f32 :=
  addf (Host.scatterAdd scatter_S50000x128_S1050000x1_S1050000x128_1_0_0_1
      (broadcastInDim S50000x128 ![] bcast_S_S50000x128 (constant S_ .f32 0x00000000#32)) (col d)
      (mulf (broadcastInDim S1050000x128 ![0, 1] bcast_S1050000x1_S1050000x128_0_1
          (broadcastInDim S1050000x1 ![0] bcast_S1050000_S1050000x1_0 n))
        (Host.gather gather_S50000x128_S1050000x1_S1050000x128_1_0_n_n_0_1_1128 P (col (wrap s)))))
    (broadcastInDim S50000x128 ![0, 1] bcast_S1x128_S50000x128_0_1 (broadcastInDim S1x128 ![1] bcast_S128_S1x128_1 b))

/-- The two dense products. -/
def mm1 (x : FVec Ideal S50000x128 .f32) (w : FVec Ideal S128x64 .f32) : FVec Ideal S50000x64 .f32 :=
  Host.dotGeneral dot_S50000x128_S128x64_S50000x64_1_0_0_1_n_n none x w
def mm2 (x : FVec Ideal S50000x64 .f32) (w : FVec Ideal S64x128 .f32) : FVec Ideal S50000x128 .f32 :=
  Host.dotGeneral dot_S50000x64_S64x128_S50000x128_1_0_0_1_n_n none x w

/-! ## Batch statistics -/

/-- The number of rows, 50000, as a float scalar. -/
def nRows : FVec Ideal S_ .f32 := constant S_ .f32 0x47435000#32
/-- A vector of 64 as one row, and a row repeated down 50000 rows. -/
def row (v : FVec Ideal S64 .f32) : FVec Ideal S1x64 .f32 := broadcastInDim S1x64 ![1] bcast_S64_S1x64_1 v
def rows (r : FVec Ideal S1x64 .f32) : FVec Ideal S50000x64 .f32 := broadcastInDim S50000x64 ![0, 1] bcast_S1x64_S50000x64_0_1 r
/-- A scalar repeated 64 times. -/
def all64 (x : FVec Ideal S_ .f32) : FVec Ideal S64 .f32 := broadcastInDim S64 ![] bcast_S_S64 x

/-- Column sums over the 50000 rows. -/
def colSum (X : FVec Ideal S50000x64 .f32) : FVec Ideal S64 .f32 :=
  Host.reduceAdd X (constant S_ .f32 0x00000000#32) reducesTo_S50000x64_S64_d0 h_S_
/-- Column means. -/
def meanOf (X : FVec Ideal S50000x64 .f32) : FVec Ideal S64 .f32 := Host.divf (colSum X) (all64 nRows)
/-- Every entry minus its column's mean (the mean taken on a row of shape 1×64). -/
def centered (X : FVec Ideal S50000x64 .f32) : FVec Ideal S50000x64 .f32 :=
  subf X (rows (Host.divf (row (colSum X)) (broadcastInDim S1x64 ![] bcast_S_S1x64 nRows)))
/-- From the squared deviations to the biased variance: their column sums over `50000 - 0`, guarded by `50000 - 0 > 0`. -/
def varTail (sq : FVec Ideal S50000x64 .f32) : FVec Ideal S64 .f32 :=
  (fun p a b => select (broadcastInDim S64 ![] bcast_S_S64 p) a b)
    (cmpf .ogt (subf nRows (sitofp .f32 (constantI S_ 32 0#32))) (constant S_ .f32 0x00000000#32))
    (Host.divf (Host.reduceAdd sq (constant S_ .f32 0x00000000#32) reducesTo_S50000x64_S64_d0 h_S_)
      (all64 (subf nRows (sitofp .f32 (constantI S_ 32 0#32)))))
    (all64 (id (constant S_ .f32 0x7FC00000#32)))
/-- Column variances (biased). -/
def varOf (X : FVec Ideal S50000x64 .f32) : FVec Ideal S64 .f32 := varTail (mulf (centered X) (centered X))

/-! ## The normalisation layer, two ways -/

/-- Bias added first: statistics of `A + b`. -/
def bnR (A : FVec Ideal S50000x64 .f32) (b g be : FVec Ideal S64 .f32) : FVec Ideal S50000x64 .f32 :=
  maximumf
    (addf
      (mulf
        (mulf (subf (addf A (rows (row b))) (rows (row (Host.divf (colSum (addf A (rows (row b)))) (all64 nRows)))))
          (rows (row (Host.rsqrt (addf (varOf (addf A (rows (row b)))) (all64 (constant S_ .f32 0x3727C5AC#32)))))))
        (rows (row g)))
      (rows (row be)))
    (broadcastInDim S50000x64 ![] bcast_S_S50000x64 (constant S_ .f32 0x00000000#32))

/-- The corrected mean of the other program: the mean of `A` plus the bias. -/
def meanK (A : FVec Ideal S50000x64 .f32) (b : FVec Ideal S64 .f32) : FVec Ideal S64 .f32 := addf (meanOf A) b

/-- One entry normalised, scaled, shifted and clipped. -/
def bnPt (a b mu v g be : EReal) : EReal :=
  max ((((a + b) - mu) * Ideal.rsqrt (v + Ideal.ofBits .f32 0x3727C5AC#32)) * g + be) (Ideal.ofBits .f32 0x00000000#32)

/-- A vector of 64 laid out as the 1×64 row a reshape gives. -/
def flat (v : FVec Ideal S64 .f32) : FVec Ideal S1x64 .f32 := fun i => v (ix1 ⟨(i 1).val, idx2_lt1 i⟩)

/-- Statistics handed in as rows: entry `(n, j)` from `A (n, j)` and column `j` of the five rows. -/
def bnK (A : FVec Ideal S50000x64 .f32) (rb rm rv rg rbe : FVec Ideal S1x64 .f32) : FVec Ideal S50000x64 .f32 := fun i =>
  bnPt (A i) (rb (ix2 (0 : Fin 1) (⟨(i 1).val, idx2_lt1 i⟩ : Fin 64))) (rm (ix2 (0 : Fin 1) (⟨(i 1).val, idx2_lt1 i⟩ : Fin 64)))
    (rv (ix2 (0 : Fin 1) (⟨(i 1).val, idx2_lt1 i⟩ : Fin 64))) (rg (ix2 (0 : Fin 1) (⟨(i 1).val, idx2_lt1 i⟩ : Fin 64)))
    (rbe (ix2 (0 : Fin 1) (⟨(i 1).val, idx2_lt1 i⟩ : Fin 64)))

theorem bnK_apply (A : FVec Ideal S50000x64 .f32) (rb rm rv rg rbe : FVec Ideal S1x64 .f32) (n : Fin 50000) (j : Fin 64) :
    bnK A rb rm rv rg rbe (ix2 n j)
      = bnPt (A (ix2 n j)) (rb (ix2 0 j)) (rm (ix2 0 j)) (rv (ix2 0 j)) (rg (ix2 0 j)) (rbe (ix2 0 j)) := rfl

theorem flat_apply (v : FVec Ideal S64 .f32) (j : Fin 64) : flat v (ix2 0 j) = v (ix1 j) := rfl

/-! ## The two programs' results as functions of the ten arguments -/

/-- The result of the program that corrects the mean afterwards. -/
def kerG (a0 : FVec Ideal S50000x128 .f32) (a1 a2 : IVec S1000000 32) (a3 : FVec Ideal S1000000 .f32) (a4 : FVec Ideal S128x64 .f32)
    (a5 a6 a7 : FVec Ideal S64 .f32) (a8 : FVec Ideal S64x128 .f32) (a9 : FVec Ideal S128 .f32) : FVec Ideal S50000x128 .f32 :=
  out128 (withLoops a1) (withLoops a2) (norm (withLoops a1) (withLoops a2) (edgeW a3))
    (mm2 (bnK (conv64 (withLoops a1) (withLoops a2) (norm (withLoops a1) (withLoops a2) (edgeW a3)) (mm1 a0 a4))
        (flat a5)
        (flat (meanK (conv64 (withLoops a1) (withLoops a2) (norm (withLoops a1) (withLoops a2) (edgeW a3)) (mm1 a0 a4)) a5))
        (flat (varOf (conv64 (withLoops a1) (withLoops a2) (norm (withLoops a1) (withLoops a2) (edgeW a3)) (mm1 a0 a4))))
        (flat a6) (flat a7)) a8) a9

/-- The result of the program that adds the bias first. -/
def refG (a0 : FVec Ideal S50000x128 .f32) (a1 a2 : IVec S1000000 32) (a3 : FVec Ideal S1000000 .f32) (a4 : FVec Ideal S128x64 .f32)
    (a5 a6 a7 : FVec Ideal S64 .f32) (a8 : FVec Ideal S64x128 .f32) (a9 : FVec Ideal S128 .f32) : FVec Ideal S50000x128 .f32 :=
  out128 (withLoops a1) (withLoops a2) (norm (withLoops a1) (withLoops a2) (edgeW a3))
    (mm2 (bnR (conv64 (withLoops a1) (withLoops a2) (norm (withLoops a1) (withLoops a2) (edgeW a3)) (mm1 a0 a4)) a5 a6 a7) a8) a9

end Cert.Spec

end
-- ==== Proof.Bridge.lean ====
/-
  The one mathematical difference between the two programs: where the first layer's bias enters the batch normalisation.

  Write `N = 50000`, `A` for the aggregated rows (entries are extended reals, possibly infinite), `b` for the bias (every
  entry a real number) and `S j = Σ_n A (n, j)` for the column sums. One program normalises `H = A + b`: its mean is
  `(Σ_n (A (n, j) + b j)) / N`, its deviations are `H − mean`, its variance is computed from the deviations. The other
  takes the statistics of `A` alone and corrects the mean afterwards: mean `S j / N + b j`, variance that of `A`.

  The two agree because, for a REAL `b` and arbitrary extended reals,
    (i)  `Σ_n (A (n, j) + b) = S + N · b` and `(S + N · b) / N = S / N + b` (by cases on `S`: at `±∞` both sides are that
         infinity, since `1 / N > 0`), so the two means agree;
    (ii) `(a + b) − (M + b) = a − M` for all `a`, `M` (by cases: adding a real moves no infinity), so with (i) the deviations
         of `A + b` from its mean are those of `A` from its own, and the variances, the same function of the deviations,
         agree.
  The rest of the layer (reciprocal square root, scale, shift, clip at zero) is the same on both sides entry by entry.
-/
import proofs.«114351_j46617575030954_2_alg».proof.Proof.Spec
import Idealize.ShloMosaic.Lib.IdealHost
import Idealize.ShloMosaic.Lib.KernelVsHost

noncomputable section
namespace Cert.Bridge

open Idealize.ShloMosaic Idealize.ShloMosaic.ValueIdx Cert.ReferenceIdeal Cert.Spec
open Cert.ReferenceIdeal.Facts₀ Cert.ReferenceIdeal.Facts

/-! ## Three laws of the extended reals -/

/-- Law (ii): a real added to both terms of a difference cancels, whatever the two terms are. -/
theorem add_sub_add_real (a M : EReal) (b : ℝ) : (a + (b : EReal)) - (M + (b : EReal)) = a - M := by
  induction a using EReal.rec <;> induction M using EReal.rec <;>
    first
      | rfl
      | (simp only [← EReal.coe_add, ← EReal.coe_sub]; congr 1; ring)
      | simp

/-- The word `0x47435000` denotes the real number 50000. -/
theorem ofBits_50000 : Ideal.ofBits .f32 0x47435000#32 = ((50000 : ℝ) : EReal) := by
  simp [Ideal.ofBits, Ideal.ieee, -EReal.coe_mul]; norm_num

/-- Law (i), second half: `(S + 50000 · b) / 50000 = S / 50000 + b` for a real `b` and any `S`. Division by the real 50000
    is the product with the positive real `1 / 50000`, which fixes each infinity. -/
theorem div_add_real (S : EReal) (b : ℝ) :
    Ideal.div (S + (((50000 : ℕ) • b : ℝ) : EReal)) ((50000 : ℝ) : EReal) = Ideal.div S ((50000 : ℝ) : EReal) + (b : EReal) := by
  rw [Ideal.div_coe (by norm_num), Ideal.div_coe (by norm_num)]
  have hk : (0 : ℝ) < 1 / 50000 := by norm_num
  induction S using EReal.rec with
  | bot => rw [EReal.bot_add, EReal.bot_mul_coe_of_pos hk, EReal.bot_add]
  | coe s =>
    rw [← EReal.coe_add, ← EReal.coe_mul, ← EReal.coe_mul, ← EReal.coe_add]
    congr 1
    rw [nsmul_eq_mul]; push_cast; ring
  | top => rw [EReal.top_add_coe, EReal.top_mul_coe_of_pos hk, EReal.top_add_coe]

/-! ## The broadcasts and the column sum read at an index -/

/-- A row repeated down the 50000 rows reads, at `(n, j)`, the row at `(0, j)`. -/
theorem rows_apply (r : FVec Ideal S1x64 .f32) (n : Fin 50000) (j : Fin 64) : rows r (ix2 n j) = r (ix2 (0 : Fin 1) j) :=
  broadcastInDim_oneRow_apply bcast_S1x64_S50000x64_0_1 r n j

/-- A vector of 64 laid out as one row reads, at `(0, j)`, the vector at `j`. -/
theorem row_apply (v : FVec Ideal S64 .f32) (j : Fin 64) : row v (ix2 (0 : Fin 1) j) = v (ix1 j) := by
  unfold row
  refine broadcastInDim_apply ![1] bcast_S64_S1x64_1 v (ix2 (0 : Fin 1) j) (ix1 j) ?_
  intro a
  match a with
  | ⟨0, _⟩ => rfl

/-- A scalar repeated 64 times reads the scalar. -/
theorem all64_apply (x : FVec Ideal S_ .f32) (j : S64.Idx) : all64 x j = x ix0 :=
  broadcastInDim_scalar_apply bcast_S_S64 x j

/-- A scalar repeated along a row of 64 reads the scalar. -/
theorem bcast1x64_apply (x : FVec Ideal S_ .f32) (j : S1x64.Idx) : broadcastInDim S1x64 ![] bcast_S_S1x64 x j = x ix0 :=
  broadcastInDim_scalar_apply bcast_S_S1x64 x j

/-- A scalar repeated over the whole 50000 × 64 table reads the scalar. -/
theorem bcastAll_apply (x : FVec Ideal S_ .f32) (j : S50000x64.Idx) : broadcastInDim S50000x64 ![] bcast_S_S50000x64 x j = x ix0 :=
  broadcastInDim_scalar_apply bcast_S_S50000x64 x j

/-- The reciprocal square root of a vector, entry by entry. -/
theorem hostRsqrt_apply (x : FVec Ideal S64 .f32) (i : S64.Idx) : Host.rsqrt x i = Ideal.rsqrt (x i) := rfl

/-- Summing a 50000 × 64 table over its rows leaves a vector of 64. -/
theorem red : S50000x64.Reduces [0] S64 := by decide

/-- The table index over column `j` with row coordinate `k` inserted is `(k, j)`. -/
theorem lift_eq (j : Fin 64) (k : Fin 50000) : red.lift (ix1 j) k = ix2 k j := by
  funext c
  match c with
  | ⟨0, _⟩ => rfl
  | ⟨1, _⟩ => rfl

/-- The column sum at `j` is the sum over the 50000 rows of the entries of column `j` (the initial value is zero). -/
theorem colSum_apply (X : FVec Ideal S50000x64 .f32) (j : Fin 64) : colSum X (ix1 j) = ∑ k : Fin 50000, X (ix2 k j) := by
  unfold colSum
  rw [hostReduceAdd_apply, Ideal.hostReduceAdd_single _ red, constant_apply, Ideal.ofBits_zero_f32, zero_add]
  exact Finset.sum_congr rfl fun k _ => congrArg X (lift_eq j k)

/-- The number of rows is the real number 50000. -/
theorem nRows_apply : nRows ix0 = ((50000 : ℝ) : EReal) := by
  unfold nRows; rw [constant_apply, ofBits_50000]

/-! ## The statistics of the shifted table -/

/-- Law (i), first half: the column sums of `A + b` are those of `A` plus `50000 · b` (a sum of a sum is the sum of the
    sums in any commutative monoid, and the sum of a constant is its multiple). -/
theorem colSum_shift (A : FVec Ideal S50000x64 .f32) (a5 : FVec Ideal S64 .f32) (j : Fin 64) (r : ℝ) (hr : a5 (ix1 j) = (r : EReal)) :
    colSum (addf A (rows (row a5))) (ix1 j) = colSum A (ix1 j) + (((50000 : ℕ) • r : ℝ) : EReal) := by
  rw [colSum_apply, colSum_apply]
  simp only [addf_apply, rows_apply, row_apply, hr]
  rw [Finset.sum_add_distrib, Finset.sum_const, Finset.card_univ, Fintype.card_fin, EReal.coe_nsmul]

/-- The mean of `A + b` is the mean of `A`, plus `b`. -/
theorem mean_shift (A : FVec Ideal S50000x64 .f32) (a5 : FVec Ideal S64 .f32) (j : Fin 64) (r : ℝ) (hr : a5 (ix1 j) = (r : EReal)) :
    Ideal.div (colSum (addf A (rows (row a5))) (ix1 j)) (nRows ix0) = meanK A a5 (ix1 j) := by
  unfold meanK meanOf
  rw [addf_apply, hostDivf_apply, all64_apply, nRows_apply, colSum_shift A a5 j r hr, div_add_real, hr]

/-- The deviations of `A + b` from its column means are those of `A` from its own. -/
theorem centered_shift (A : FVec Ideal S50000x64 .f32) (a5 : FVec Ideal S64 .f32) (h5 : ∀ j, ∃ r : ℝ, a5 j = (r : EReal)) :
    centered (addf A (rows (row a5))) = centered A := by
  funext i
  obtain ⟨n, j, rfl⟩ : ∃ (n : Fin 50000) (j : Fin 64), i = ix2 n j := ⟨i 0, i 1, eq_ix2 i⟩
  obtain ⟨r, hr⟩ := h5 (ix1 j)
  unfold centered
  rw [subf_apply, subf_apply, rows_apply, rows_apply, hostDivf_apply, hostDivf_apply, row_apply, row_apply, bcast1x64_apply, nRows_apply,
    colSum_shift A a5 j r hr, div_add_real, addf_apply, rows_apply, row_apply, hr, add_sub_add_real]

/-- So the variances agree: they are one function of the deviations. -/
theorem varOf_shift (A : FVec Ideal S50000x64 .f32) (a5 : FVec Ideal S64 .f32) (h5 : ∀ j, ∃ r : ℝ, a5 j = (r : EReal)) :
    varOf (addf A (rows (row a5))) = varOf A := by
  unfold varOf; rw [centered_shift A a5 h5]

/-! ## The layer that adds the bias first, read at an entry -/

theorem bnR_apply (A : FVec Ideal S50000x64 .f32) (b g be : FVec Ideal S64 .f32) (n : Fin 50000) (j : Fin 64) :
    bnR A b g be (ix2 n j)
      = max ((((A (ix2 n j) + b (ix1 j)) - Ideal.div (colSum (addf A (rows (row b))) (ix1 j)) (nRows ix0))
              * Ideal.rsqrt (varOf (addf A (rows (row b))) (ix1 j) + Ideal.ofBits .f32 0x3727C5AC#32)) * g (ix1 j) + be (ix1 j))
          (Ideal.ofBits .f32 0x00000000#32) := by
  unfold bnR
  rw [maximumf_apply, bcastAll_apply, constant_apply, addf_apply, mulf_apply, mulf_apply, subf_apply, addf_apply,
    rows_apply, rows_apply, rows_apply, rows_apply, rows_apply, row_apply, row_apply, row_apply, row_apply, row_apply,
    hostDivf_apply, all64_apply, hostRsqrt_apply, addf_apply, all64_apply, constant_apply]

end Cert.Bridge

/- The two normalisation layers are the same table: entry by entry, the mean and the variance handed in as rows are the
   mean and the variance the other side computes from `A + b`. -/
open Idealize.ShloMosaic Cert.ReferenceIdeal Cert.Spec
theorem Cert.Bridge.bn_eq (A : FVec Ideal S50000x64 .f32) (a5 a6 a7 : FVec Ideal S64 .f32) (h5 : ∀ j, ∃ r : ℝ, a5 j = (r : EReal)) :
    bnK A (flat a5) (flat (meanK A a5)) (flat (varOf A)) (flat a6) (flat a7) = bnR A a5 a6 a7 := by
  funext i
  obtain ⟨n, j, rfl⟩ : ∃ (n : Fin 50000) (j : Fin 64), i = ValueIdx.ix2 n j := ⟨i 0, i 1, ValueIdx.eq_ix2 i⟩
  obtain ⟨r, hr⟩ := h5 (ValueIdx.ix1 j)
  rw [bnK_apply, flat_apply, flat_apply, flat_apply, flat_apply, flat_apply, Cert.Bridge.bnR_apply,
    Cert.Bridge.mean_shift A a5 j r hr, Cert.Bridge.varOf_shift A a5 h5]
  unfold bnPt
  rfl

end
-- ==== Proof.Finite.lean ====
/-
  Finiteness of the first layer's bias.

  The precondition says of each of the eight float inputs that every entry `x` satisfies `|x| < +∞`, as one bit: the
  conjunction of eight "for all entries" tests. Reading that bit back for the fourth tested input — the bias of the first
  layer, a vector of 64 — gives that each of its entries is a real number: on the extended reals `|x| = max x (-x)` is
  `+∞` exactly at the two infinities, so `|x| < +∞` leaves only the reals.
-/
import proofs.«114351_j46617575030954_2_alg».proof.Defs
import proofs.«114351_j46617575030954_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Idealize.SL.Sem

/-- The scalar shape has one index. -/
instance : Subsingleton Cert.Pre_finite_inputs.S_.Idx := ⟨fun a b => funext fun d => d.elim0⟩

/-- An extended real whose absolute value `max x (-x)` is below `+∞` (the word `0x7F800000`) is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

open Cert.Pre_finite_inputs in
/-- The precondition is a chain of seven `and`s over eight "all entries finite" bits, associated to the left; the bit of
    the sixth argument is the right operand of the third `and`. From the whole chain being 1 that bit is 1, so every
    entry's test is 1, so every entry is real. -/
theorem arg5_real (a0 : FVec Ideal S50000x128 .f32) (a1 a2 : IVec S1000000 32) (a3 : FVec Ideal S1000000 .f32)
    (a4 : FVec Ideal S128x64 .f32) (a5 a6 a7 : FVec Ideal S64 .f32) (a8 : FVec Ideal S64x128 .f32) (a9 : FVec Ideal S128 .f32)
    (h : Cert.Pre_finite_inputs.fn (F := Ideal) a0 a1 a2 a3 a4 a5 a6 a7 a8 a9 = fun _ => 1#1) :
    ∀ j, ∃ r : ℝ, a5 j = (r : EReal) := by
  intro j
  have h0 := congrFun h ValueIdx.ix0
  dsimp only [Cert.Pre_finite_inputs.fn, Cert.Pre_finite_inputs.fn_part1, Cert.Pre_finite_inputs.fn_part2] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).2
  have h6 := Host.reduce_andi_all _ _ _ _ _ h5 j
  exact real_of_abs_lt (a5 j) h6

end Cert.Finite

open Idealize.ShloMosaic Idealize.SL.Sem
theorem Cert.Finite.b1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, ∃ r : ℝ, m ((c.tc : Thread Cert.KernelIdeal.nD Cert.KernelIdeal.τ).loc Cert.KernelIdeal.main_arg5) j = (r : EReal) :=
  Cert.Finite.arg5_real _ _ _ _ _ _ _ _ _ _ (h c)
-- ==== Proof.KerRun.lean ====
/-
  The kernel program's run with its result named: every weakly fair execution of @main terminates, the ten argument
  arrays end as launched, and the result buffer ends at what the last stretch of host operations leaves in it — the
  fold of @main's segments (host stretches and the three pallas_call regions) from the launch memory, read at the
  result buffer.
-/
import proofs.«114351_j46617575030954_2_alg».proof.Proof.Gen.KernelIdeal.Frame

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run, read at the result buffer and at the arguments: the last thread state holds every unscoped
    buffer at the last boundary's contents, and the final memory is read against it. -/
theorem run : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KerSide

end
-- ==== Proof.KerRegion0.lean ====
/-
  The first dense product as a whole array. The grid has ten points; point t multiplies rows 5000·t … 5000·t + 4999 of the
  50000×128 left operand by the whole 128×64 right operand and writes rows 5000·t … 5000·t + 4999 of the 50000×64
  result. Entry (r, j) of the block is Σ_k xblock(r, k) · w(k, j) with xblock(r, k) = x(5000·t + r, k), which is entry
  (5000·t + r, j) of the whole product x · w; the ten row blocks tile the result, so the array ends as x · w.
-/
import proofs.«114351_j46617575030954_2_alg».proof.Proof.Gen.KernelIdeal.Frame
import proofs.«114351_j46617575030954_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KerRegions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- The block product at an entry: the sum over the contracted coordinate (a change of float format is the identity on
    extended reals, and the accumulator is the zero splat). -/
theorem pay0_apply (x0 : Vec Ideal S5000x128 .f32) (x1 : Vec Ideal S128x64 .f32) (r : Fin 5000) (j : Fin 64) :
    k0_pay1 x0 x1 (ix2 r j) = ∑ k : Fin 128, x0 (ix2 r k) * x1 (ix2 k j) := by
  unfold k0_pay1
  show FloatOps.matmul dot_S5000x128_S128x64_S5000x64_1_0_0_1_n_n none _ _ (constant S5000x64 .f32 0x00000000#32) (ix2 r j) = _
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 r j) ((contrEquiv1 _ 128 rfl rfl).symm k) = ix2 r k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : dot_S5000x128_S128x64_S5000x64_1_0_0_1_n_n.rhsIdx (ix2 r j) ((contrEquiv1 _ 128 rfl rfl).symm k) = ix2 k j := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]
  rfl

/-- The whole product at an entry: the same sum over the contracted coordinate. -/
theorem mm1_apply (X : FVec Ideal Cert.ReferenceIdeal.S50000x128 .f32) (W : FVec Ideal Cert.ReferenceIdeal.S128x64 .f32)
    (n : Fin 50000) (j : Fin 64) :
    Cert.Spec.mm1 X W (ix2 n j) = ∑ k : Fin 128, X (ix2 n k) * W (ix2 k j) := by
  unfold Cert.Spec.mm1
  show FloatOps.dotGeneral Cert.ReferenceIdeal.dot_S50000x128_S128x64_S50000x64_1_0_0_1_n_n none _ X W (ix2 n j) = _
  rw [Ideal.dotGeneral_apply,
    ← Equiv.sum_comp (contrEquiv1 Cert.ReferenceIdeal.dot_S50000x128_S128x64_S50000x64_1_0_0_1_n_n 128 rfl rfl).symm]
  refine Finset.sum_congr rfl fun k _ => ?_
  have c2 := contrEquiv1_symm_val Cert.ReferenceIdeal.dot_S50000x128_S128x64_S50000x64_1_0_0_1_n_n 128 rfl rfl k
  have l2 : Cert.ReferenceIdeal.dot_S50000x128_S128x64_S50000x64_1_0_0_1_n_n.lhsIdx (ix2 n j) ((contrEquiv1 _ 128 rfl rfl).symm k) = ix2 n k := by
    funext ax; apply Fin.ext
    match ax with
    | ⟨0, _⟩ => simp [DotDims.lhsIdx, Cert.ReferenceIdeal.dot_S50000x128_S128x64_S50000x64_1_0_0_1_n_n]; rfl
    | ⟨1, _⟩ => simp [DotDims.lhsIdx, Cert.ReferenceIdeal.dot_S50000x128_S128x64_S50000x64_1_0_0_1_n_n]; exact c2
  have r2 : Cert.ReferenceIdeal.dot_S50000x128_S128x64_S50000x64_1_0_0_1_n_n.rhsIdx (ix2 n j) ((contrEquiv1 _ 128 rfl rfl).symm k) = ix2 k j := by
    funext ax; apply Fin.ext
    match ax with
    | ⟨0, _⟩ => simp [DotDims.rhsIdx, Cert.ReferenceIdeal.dot_S50000x128_S128x64_S50000x64_1_0_0_1_n_n]; exact c2
    | ⟨1, _⟩ => simp [DotDims.rhsIdx, Cert.ReferenceIdeal.dot_S50000x128_S128x64_S50000x64_1_0_0_1_n_n]; rfl
  rw [l2, r2]

/-- A row block of the product: if the left block is rows 5000·T … of `X` and the right block is `W`, the block product at
    (r, j) is the whole product at (5000·T + r, j). -/
theorem mm1_block (x0 : Vec Ideal S5000x128 .f32) (x1 : Vec Ideal S128x64 .f32)
    (X : FVec Ideal Cert.ReferenceIdeal.S50000x128 .f32) (W : FVec Ideal Cert.ReferenceIdeal.S128x64 .f32) (T : Nat)
    (h0 : ∀ (x : S5000x128.Idx) (k : S50000x128.Idx), (k 0).val = 5000 * T + (x 0).val → (k 1).val = (x 1).val → x0 x = X k)
    (h1 : ∀ x : S128x64.Idx, x1 x = W x)
    (j : S5000x64.Idx) (i : S50000x64.Idx) (hi0 : (i 0).val = 5000 * T + (j 0).val) (hi1 : (i 1).val = (j 1).val) :
    k0_pay1 x0 x1 j = Cert.Spec.mm1 X W i := by
  obtain ⟨r, q, rfl⟩ : ∃ (r : Fin 5000) (q : Fin 64), j = ix2 r q := ⟨j 0, j 1, eq_ix2 j⟩
  obtain ⟨n, q', rfl⟩ : ∃ (n : Fin 50000) (q' : Fin 64), i = ix2 n q' := ⟨i 0, i 1, eq_ix2 i⟩
  obtain rfl : q' = q := Fin.ext hi1
  rw [pay0_apply, mm1_apply]
  refine Finset.sum_congr rfl fun k _ => ?_
  rw [h0 (ix2 r k) (ix2 n k) hi0 rfl, h1]

/-- The printed index maps over the grid: the left operand's and the result's blocks move down one block of rows per
    point, the right operand's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows 5000·t … 5000·t + 4999 of the array. -/
theorem iblk0_0_apply (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -, -, -, -⟩ := idx_facts0 t
  unfold iblk0
  rw [View.read_apply]
  show V c main_arg0 _ = V c main_arg0 _
  refine congrArg _ (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's block at every point is the whole array. -/
theorem iblk0_1_apply (t : Fin cfg0.N) (x : S128x64.Idx) :
    (iblk0 V c 1 t : Vec Ideal S128x64 .f32) x = (V c main_arg4 : S128x64.Idx → EReal) x := by
  obtain ⟨-, -, e2, e3, -, -⟩ := idx_facts0 t
  unfold iblk0
  rw [View.read_apply]
  show V c main_arg4 _ = V c main_arg4 _
  refine congrArg _ (funext fun a => Fin.ext ?_)
  match a with
  | ⟨0, _⟩ => show win0_1.index t 0 * 128 + 1 * (x 0).val = (x 0).val; rw [e2]; omega
  | ⟨1, _⟩ => show win0_1.index t 1 * 64 + 1 * (x 1).val = (x 1).val; rw [e3]; omega

/-- What point `t` writes back is block `t` of the whole product. -/
theorem flushed0_eq (t : Fin cfg0.N) :
    (dat0 (F := Ideal) V c).flushed 2 t
      = ((cfg0.win 2).blk t).view.read (Elt Ideal) (Cert.Spec.mm1 (V c main_arg0) (V c main_arg4)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x64) hz0]
  obtain ⟨-, -, -, -, e4, e5⟩ := idx_facts0 t
  funext j
  show k0_pay1 (iblk0 V c 0 t) (iblk0 V c 1 t) j = Cert.Spec.mm1 (V c main_arg0) (V c main_arg4) (((cfg0.win 2).blk t).view.emb j)
  refine mm1_block (iblk0 V c 0 t) (iblk0 V c 1 t) (V c main_arg0) (V c main_arg4) t.val
    (iblk0_0_apply V c t) (iblk0_1_apply V c t) j (((cfg0.win 2).blk t).view.emb j) ?_ ?_
  · show win0_2.index t 0 * 5000 + 1 * (j 0).val = 5000 * t.val + (j 0).val; rw [e4]; omega
  · show win0_2.index t 1 * 64 + 1 * (j 1).val = (j 1).val; rw [e5]; omega

/-- An index of the array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- Row `n` of the result lies in the block of point `n / 5000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- After the first region its output array is the dense product of the two arrays it read. -/
theorem region0_array :
    (dat0 (F := Ideal) V c).arrAt 2 cfg0.N = Cert.Spec.mm1 (V c main_arg0) (V c main_arg4) :=
  (dat0 V c).arrAt_eq_of_cover 2 (Cert.Spec.mm1 (V c main_arg0) (V c main_arg4)) (fun t _ => flushed0_eq V c t) cover0

end Cert.KerRegions

end
-- ==== Proof.KerRegion1.lean ====
/-
  The normalisation between the two layers as a whole array. The grid has ten points; point t reads rows
  5000·t … 5000·t + 4999 of the 50000×64 input and, at every point, the same five 1×64 rows (bias, mean, variance, scale,
  shift), and writes rows 5000·t … 5000·t + 4999 of the 50000×64 result. The body is pointwise: entry (r, j) of the block is
  max ((((a + b_j) − μ_j) · rsqrt(v_j + ε)) · g_j + β_j) 0 with a = input(5000·t + r, j), so it is entry (5000·t + r, j) of the
  whole-array normalisation; the ten row blocks tile the result.
-/
import proofs.«114351_j46617575030954_2_alg».proof.Proof.Gen.KernelIdeal.Frame
import proofs.«114351_j46617575030954_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KerRegions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

theorem hz1 : (![0, 0] : Fin 2 → Nat) = fun _ => 0 := funext fun a => by fin_cases a <;> rfl

/-- The body at an entry: the block's entry and column `j` of the five rows, normalised, scaled, shifted and clipped.
    (The payload's parameters come in the order the body loads them: block, bias, variance, mean, scale, shift.) -/
theorem pay1_apply (v0 : Vec Ideal S5000x64 .f32) (v2 v6 v11 v17 v21 : Vec Ideal S1x64 .f32) (r : Fin 5000) (j : Fin 64) :
    k1_pay1 v0 v2 v6 v11 v17 v21 (ix2 r j)
      = Cert.Spec.bnPt (v0 (ix2 r j)) (v2 (ix2 (0 : Fin 1) j)) (v11 (ix2 (0 : Fin 1) j)) (v6 (ix2 (0 : Fin 1) j))
          (v17 (ix2 (0 : Fin 1) j)) (v21 (ix2 (0 : Fin 1) j)) := by
  have hb : ∀ v : Vec Ideal S1x64 .f32, broadcastTo S5000x64 v broadcasts_S1x64_S5000x64 (ix2 r j) = v (ix2 (0 : Fin 1) j) :=
    fun v => broadcastTo_1b_ab_apply v broadcasts_S1x64_S5000x64 r j
  unfold k1_pay1 Cert.Spec.bnPt
  simp only [shapeCast_self, maximumf_apply, addf_apply, mulf_apply, subf_apply, hb, broadcast_apply]
  rfl

/-- A row block of the normalisation: if the block is rows 5000·T … of `A` and the five rows are the given rows, the body
    at (r, j) is the whole-array normalisation at (5000·T + r, j). -/
theorem bn_block (x0 : Vec Ideal S5000x64 .f32) (x1 x2 x3 x4 x5 : Vec Ideal S1x64 .f32)
    (A : FVec Ideal Cert.ReferenceIdeal.S50000x64 .f32) (rb rm rv rg rbe : FVec Ideal Cert.ReferenceIdeal.S1x64 .f32) (T : Nat)
    (h0 : ∀ (x : S5000x64.Idx) (k : S50000x64.Idx), (k 0).val = 5000 * T + (x 0).val → (k 1).val = (x 1).val → x0 x = A k)
    (h1 : ∀ x : S1x64.Idx, x1 x = rb x) (h2 : ∀ x : S1x64.Idx, x2 x = rm x) (h3 : ∀ x : S1x64.Idx, x3 x = rv x)
    (h4 : ∀ x : S1x64.Idx, x4 x = rg x) (h5 : ∀ x : S1x64.Idx, x5 x = rbe x)
    (j : S5000x64.Idx) (i : S50000x64.Idx) (hi0 : (i 0).val = 5000 * T + (j 0).val) (hi1 : (i 1).val = (j 1).val) :
    k1_pay1 x0 x1 x3 x2 x4 x5 j = Cert.Spec.bnK A rb rm rv rg rbe i := by
  obtain ⟨r, q, rfl⟩ : ∃ (r : Fin 5000) (q : Fin 64), j = ix2 r q := ⟨j 0, j 1, eq_ix2 j⟩
  obtain ⟨n, q', rfl⟩ : ∃ (n : Fin 50000) (q' : Fin 64), i = ix2 n q' := ⟨i 0, i 1, eq_ix2 i⟩
  obtain rfl : q' = q := Fin.ext hi1
  rw [pay1_apply, Cert.Spec.bnK_apply, h0 (ix2 r q') (ix2 n q') hi0 rfl, h1, h2, h3, h4, h5]

/-- The printed index maps over the grid: the input's and the result's blocks move down one block of rows per point, the
    five rows' blocks stay. -/
theorem idx_facts1 : ∀ t : Fin cfg1.N, (win1_0.index t (0 : Fin 2) = t.val ∧ win1_0.index t (1 : Fin 2) = 0)
    ∧ (win1_6.index t (0 : Fin 2) = t.val ∧ win1_6.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The input's block at point `t` is rows 5000·t … 5000·t + 4999 of the array. -/
theorem iblk1_0_apply (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v41 : S50000x64.Idx → EReal) k := by
  obtain ⟨e0, e1⟩ := (idx_facts1 t).1
  unfold iblk1
  rw [View.read_apply]
  show V c main_v41 _ = V c main_v41 _
  refine congrArg _ (funext fun a => Fin.ext ?_)
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-! Each of the five rows' blocks, at every point, is the whole 1×64 array. -/

theorem iblk1_1_apply (t : Fin cfg1.N) (x : S1x64.Idx) :
    (iblk1 V c 1 t : Vec Ideal S1x64 .f32) x = (V c main_v47 : S1x64.Idx → EReal) x := by
  obtain ⟨e0, e1⟩ := (idx_facts1 t).2.2.1
  unfold iblk1
  rw [View.read_apply]
  show V c main_v47 _ = V c main_v47 _
  refine congrArg _ (funext fun a => Fin.ext ?_)
  match a with
  | ⟨0, _⟩ => show win1_1.index t 0 * 1 + 1 * (x 0).val = (x 0).val; rw [e0]; omega
  | ⟨1, _⟩ => show win1_1.index t 1 * 64 + 1 * (x 1).val = (x 1).val; rw [e1]; omega

theorem iblk1_2_apply (t : Fin cfg1.N) (x : S1x64.Idx) :
    (iblk1 V c 2 t : Vec Ideal S1x64 .f32) x = (V c main_v48 : S1x64.Idx → EReal) x := by
  obtain ⟨e0, e1⟩ := (idx_facts1 t).2.2.2.1
  unfold iblk1
  rw [View.read_apply]
  show V c main_v48 _ = V c main_v48 _
  refine congrArg _ (funext fun a => Fin.ext ?_)
  match a with
  | ⟨0, _⟩ => show win1_2.index t 0 * 1 + 1 * (x 0).val = (x 0).val; rw [e0]; omega
  | ⟨1, _⟩ => show win1_2.index t 1 * 64 + 1 * (x 1).val = (x 1).val; rw [e1]; omega

theorem iblk1_3_apply (t : Fin cfg1.N) (x : S1x64.Idx) :
    (iblk1 V c 3 t : Vec Ideal S1x64 .f32) x = (V c main_v49 : S1x64.Idx → EReal) x := by
  obtain ⟨e0, e1⟩ := (idx_facts1 t).2.2.2.2.1
  unfold iblk1
  rw [View.read_apply]
  show V c main_v49 _ = V c main_v49 _
  refine congrArg _ (funext fun a => Fin.ext ?_)
  match a with
  | ⟨0, _⟩ => show win1_3.index t 0 * 1 + 1 * (x 0).val = (x 0).val; rw [e0]; omega
  | ⟨1, _⟩ => show win1_3.index t 1 * 64 + 1 * (x 1).val = (x 1).val; rw [e1]; omega

theorem iblk1_4_apply (t : Fin cfg1.N) (x : S1x64.Idx) :
    (iblk1 V c 4 t : Vec Ideal S1x64 .f32) x = (V c main_v50 : S1x64.Idx → EReal) x := by
  obtain ⟨e0, e1⟩ := (idx_facts1 t).2.2.2.2.2.1
  unfold iblk1
  rw [View.read_apply]
  show V c main_v50 _ = V c main_v50 _
  refine congrArg _ (funext fun a => Fin.ext ?_)
  match a with
  | ⟨0, _⟩ => show win1_4.index t 0 * 1 + 1 * (x 0).val = (x 0).val; rw [e0]; omega
  | ⟨1, _⟩ => show win1_4.index t 1 * 64 + 1 * (x 1).val = (x 1).val; rw [e1]; omega

theorem iblk1_5_apply (t : Fin cfg1.N) (x : S1x64.Idx) :
    (iblk1 V c 5 t : Vec Ideal S1x64 .f32) x = (V c main_v51 : S1x64.Idx → EReal) x := by
  obtain ⟨e0, e1⟩ := (idx_facts1 t).2.2.2.2.2.2
  unfold iblk1
  rw [View.read_apply]
  show V c main_v51 _ = V c main_v51 _
  refine congrArg _ (funext fun a => Fin.ext ?_)
  match a with
  | ⟨0, _⟩ => show win1_5.index t 0 * 1 + 1 * (x 0).val = (x 0).val; rw [e0]; omega
  | ⟨1, _⟩ => show win1_5.index t 1 * 64 + 1 * (x 1).val = (x 1).val; rw [e1]; omega

/-- What point `t` writes back is block `t` of the whole-array normalisation. -/
theorem flushed1_eq (t : Fin cfg1.N) :
    (dat1 (F := Ideal) V c).flushed 6 t
      = ((cfg1.win 6).blk t).view.read (Elt Ideal)
          (Cert.Spec.bnK (V c main_v41) (V c main_v47) (V c main_v48) (V c main_v49) (V c main_v50) (V c main_v51)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S1x64) hz1]
  obtain ⟨e4, e5⟩ := (idx_facts1 t).2.1
  funext j
  show k1_pay1 (iblk1 V c 0 t) (iblk1 V c 1 t) (iblk1 V c 3 t) (iblk1 V c 2 t) (iblk1 V c 4 t) (iblk1 V c 5 t) j
    = Cert.Spec.bnK (V c main_v41) (V c main_v47) (V c main_v48) (V c main_v49) (V c main_v50) (V c main_v51)
        (((cfg1.win 6).blk t).view.emb j)
  refine bn_block (iblk1 V c 0 t) (iblk1 V c 1 t) (iblk1 V c 2 t) (iblk1 V c 3 t) (iblk1 V c 4 t) (iblk1 V c 5 t)
    (V c main_v41) (V c main_v47) (V c main_v48) (V c main_v49) (V c main_v50) (V c main_v51) t.val
    (iblk1_0_apply V c t) (iblk1_1_apply V c t) (iblk1_2_apply V c t) (iblk1_3_apply V c t) (iblk1_4_apply V c t)
    (iblk1_5_apply V c t) j (((cfg1.win 6).blk t).view.emb j) ?_ ?_
  · show win1_6.index t 0 * 5000 + 1 * (j 0).val = 5000 * t.val + (j 0).val; rw [e4]; omega
  · show win1_6.index t 1 * 64 + 1 * (j 1).val = (j 1).val; rw [e5]; omega

/-- An index of the array is in point `t`'s block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v52).slice (win1_6.rect t)).set ↔ _
  rw [View.set_slice_whole, Rect.mem_set_unit]
  exact Iff.rfl

/-- Row `n` of the result lies in the block of point `n / 5000`. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e4, e5⟩ := (idx_facts1 t).2.1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e4, ht]; omega
  | ⟨1, _⟩ => show win1_6.index t (1 : Fin 2) * 64 ≤ (i 1).val ∧ (i 1).val < win1_6.index t (1 : Fin 2) * 64 + 64; rw [e5]; omega

/-- After the second region its output array is the whole-array normalisation of the six arrays it read. -/
theorem region1_array :
    (dat1 (F := Ideal) V c).arrAt 6 cfg1.N
      = Cert.Spec.bnK (V c main_v41) (V c main_v47) (V c main_v48) (V c main_v49) (V c main_v50) (V c main_v51) :=
  (dat1 V c).arrAt_eq_of_cover 6
    (Cert.Spec.bnK (V c main_v41) (V c main_v47) (V c main_v48) (V c main_v49) (V c main_v50) (V c main_v51))
    (fun t _ => flushed1_eq V c t) cover1

end Cert.KerRegions

end
-- ==== Proof.KerRegion2.lean ====
/-
  The second dense product as a whole array. The grid has ten points; point t multiplies rows 5000·t … 5000·t + 4999 of
  the 50000×64 left operand by the whole 64×128 right operand and writes rows 5000·t … 5000·t + 4999 of the 50000×128
  result. Entry (r, j) of the block is Σ_k hblock(r, k) · w(k, j) with hblock(r, k) = h(5000·t + r, k), which is entry
  (5000·t + r, j) of the whole product h · w; the ten row blocks tile the result, so the array ends as h · w.
-/
import proofs.«114351_j46617575030954_2_alg».proof.Proof.Gen.KernelIdeal.Frame
import proofs.«114351_j46617575030954_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KerRegions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The block product at an entry: the sum over the contracted coordinate (a shape cast to the same shape and a change
    of float format are the identity on extended reals, and the accumulator is the zero splat). -/
theorem pay2_apply (x0 : Vec Ideal S5000x64 .f32) (x1 : Vec Ideal S64x128 .f32) (r : Fin 5000) (j : Fin 128) :
    k2_pay1 x0 x1 (ix2 r j) = ∑ k : Fin 64, x0 (ix2 r k) * x1 (ix2 k j) := by
  unfold k2_pay1
  simp only [shapeCast_self]
  show FloatOps.matmul dot_S5000x64_S64x128_S5000x128_1_0_0_1_n_n none _ _ (constant S5000x128 .f32 0x00000000#32) (ix2 r j) = _
  rw [Ideal.matmul_constant_zero_apply,
    ← Equiv.sum_comp (contrEquiv1 dot_S5000x64_S64x128_S5000x128_1_0_0_1_n_n 64 rfl rfl).symm]
  refine Finset.sum_congr rfl fun k _ => ?_
  have c2 := contrEquiv1_symm_val dot_S5000x64_S64x128_S5000x128_1_0_0_1_n_n 64 rfl rfl k
  have l2 : dot_S5000x64_S64x128_S5000x128_1_0_0_1_n_n.lhsIdx (ix2 r j) ((contrEquiv1 _ 64 rfl rfl).symm k) = ix2 r k := by
    funext ax; apply Fin.ext
    match ax with
    | ⟨0, _⟩ => simp [DotDims.lhsIdx, dot_S5000x64_S64x128_S5000x128_1_0_0_1_n_n]; rfl
    | ⟨1, _⟩ => simp [DotDims.lhsIdx, dot_S5000x64_S64x128_S5000x128_1_0_0_1_n_n]; exact c2
  have r2 : dot_S5000x64_S64x128_S5000x128_1_0_0_1_n_n.rhsIdx (ix2 r j) ((contrEquiv1 _ 64 rfl rfl).symm k) = ix2 k j := by
    funext ax; apply Fin.ext
    match ax with
    | ⟨0, _⟩ => simp [DotDims.rhsIdx, dot_S5000x64_S64x128_S5000x128_1_0_0_1_n_n]; exact c2
    | ⟨1, _⟩ => simp [DotDims.rhsIdx, dot_S5000x64_S64x128_S5000x128_1_0_0_1_n_n]; rfl
  rw [l2, r2]
  rfl

/-- The whole product at an entry: the same sum over the contracted coordinate. -/
theorem mm2_apply (X : FVec Ideal Cert.ReferenceIdeal.S50000x64 .f32) (W : FVec Ideal Cert.ReferenceIdeal.S64x128 .f32)
    (n : Fin 50000) (j : Fin 128) :
    Cert.Spec.mm2 X W (ix2 n j) = ∑ k : Fin 64, X (ix2 n k) * W (ix2 k j) := by
  unfold Cert.Spec.mm2
  show FloatOps.dotGeneral Cert.ReferenceIdeal.dot_S50000x64_S64x128_S50000x128_1_0_0_1_n_n none _ X W (ix2 n j) = _
  rw [Ideal.dotGeneral_apply,
    ← Equiv.sum_comp (contrEquiv1 Cert.ReferenceIdeal.dot_S50000x64_S64x128_S50000x128_1_0_0_1_n_n 64 rfl rfl).symm]
  refine Finset.sum_congr rfl fun k _ => ?_
  have c2 := contrEquiv1_symm_val Cert.ReferenceIdeal.dot_S50000x64_S64x128_S50000x128_1_0_0_1_n_n 64 rfl rfl k
  have l2 : Cert.ReferenceIdeal.dot_S50000x64_S64x128_S50000x128_1_0_0_1_n_n.lhsIdx (ix2 n j) ((contrEquiv1 _ 64 rfl rfl).symm k) = ix2 n k := by
    funext ax; apply Fin.ext
    match ax with
    | ⟨0, _⟩ => simp [DotDims.lhsIdx, Cert.ReferenceIdeal.dot_S50000x64_S64x128_S50000x128_1_0_0_1_n_n]; rfl
    | ⟨1, _⟩ => simp [DotDims.lhsIdx, Cert.ReferenceIdeal.dot_S50000x64_S64x128_S50000x128_1_0_0_1_n_n]; exact c2
  have r2 : Cert.ReferenceIdeal.dot_S50000x64_S64x128_S50000x128_1_0_0_1_n_n.rhsIdx (ix2 n j) ((contrEquiv1 _ 64 rfl rfl).symm k) = ix2 k j := by
    funext ax; apply Fin.ext
    match ax with
    | ⟨0, _⟩ => simp [DotDims.rhsIdx, Cert.ReferenceIdeal.dot_S50000x64_S64x128_S50000x128_1_0_0_1_n_n]; exact c2
    | ⟨1, _⟩ => simp [DotDims.rhsIdx, Cert.ReferenceIdeal.dot_S50000x64_S64x128_S50000x128_1_0_0_1_n_n]; rfl
  rw [l2, r2]

/-- A row block of the product: if the left block is rows 5000·T … of `X` and the right block is `W`, the block product at
    (r, j) is the whole product at (5000·T + r, j). -/
theorem mm2_block (x0 : Vec Ideal S5000x64 .f32) (x1 : Vec Ideal S64x128 .f32)
    (X : FVec Ideal Cert.ReferenceIdeal.S50000x64 .f32) (W : FVec Ideal Cert.ReferenceIdeal.S64x128 .f32) (T : Nat)
    (h0 : ∀ (x : S5000x64.Idx) (k : S50000x64.Idx), (k 0).val = 5000 * T + (x 0).val → (k 1).val = (x 1).val → x0 x = X k)
    (h1 : ∀ x : S64x128.Idx, x1 x = W x)
    (j : S5000x128.Idx) (i : S50000x128.Idx) (hi0 : (i 0).val = 5000 * T + (j 0).val) (hi1 : (i 1).val = (j 1).val) :
    k2_pay1 x0 x1 j = Cert.Spec.mm2 X W i := by
  obtain ⟨r, q, rfl⟩ : ∃ (r : Fin 5000) (q : Fin 128), j = ix2 r q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  rw [pay2_apply, mm2_apply]
  refine Finset.sum_congr rfl fun k _ => ?_
  rw [h0 (ix2 r k) (ix2 n k) hi0 rfl, h1]

/-- The printed index maps over the grid: the left operand's and the result's blocks move down one block of rows per
    point, the right operand's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows 5000·t … 5000·t + 4999 of the array. -/
theorem iblk2_0_apply (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v52 : S50000x64.Idx → EReal) k := by
  obtain ⟨e0, e1, -, -, -, -⟩ := idx_facts2 t
  unfold iblk2
  rw [View.read_apply]
  show V c main_v52 _ = V c main_v52 _
  refine congrArg _ (funext fun a => Fin.ext ?_)
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The right operand's block at every point is the whole array. -/
theorem iblk2_1_apply (t : Fin cfg2.N) (x : S64x128.Idx) :
    (iblk2 V c 1 t : Vec Ideal S64x128 .f32) x = (V c main_arg8 : S64x128.Idx → EReal) x := by
  obtain ⟨-, -, e2, e3, -, -⟩ := idx_facts2 t
  unfold iblk2
  rw [View.read_apply]
  show V c main_arg8 _ = V c main_arg8 _
  refine congrArg _ (funext fun a => Fin.ext ?_)
  match a with
  | ⟨0, _⟩ => show win2_1.index t 0 * 64 + 1 * (x 0).val = (x 0).val; rw [e2]; omega
  | ⟨1, _⟩ => show win2_1.index t 1 * 128 + 1 * (x 1).val = (x 1).val; rw [e3]; omega

/-- What point `t` writes back is block `t` of the whole product. -/
theorem flushed2_eq (t : Fin cfg2.N) :
    (dat2 (F := Ideal) V c).flushed 2 t
      = ((cfg2.win 2).blk t).view.read (Elt Ideal) (Cert.Spec.mm2 (V c main_v52) (V c main_arg8)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x128) hz2]
  obtain ⟨-, -, -, -, e4, e5⟩ := idx_facts2 t
  funext j
  show k2_pay1 (iblk2 V c 0 t) (iblk2 V c 1 t) j = Cert.Spec.mm2 (V c main_v52) (V c main_arg8) (((cfg2.win 2).blk t).view.emb j)
  refine mm2_block (iblk2 V c 0 t) (iblk2 V c 1 t) (V c main_v52) (V c main_arg8) t.val
    (iblk2_0_apply V c t) (iblk2_1_apply V c t) j (((cfg2.win 2).blk t).view.emb j) ?_ ?_
  · show win2_2.index t 0 * 5000 + 1 * (j 0).val = 5000 * t.val + (j 0).val; rw [e4]; omega
  · show win2_2.index t 1 * 128 + 1 * (j 1).val = (j 1).val; rw [e5]; omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Row `n` of the result lies in the block of point `n / 5000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- After the third region its output array is the dense product of the two arrays it read. -/
theorem region2_array :
    (dat2 (F := Ideal) V c).arrAt 2 cfg2.N = Cert.Spec.mm2 (V c main_v52) (V c main_arg8) :=
  (dat2 V c).arrAt_eq_of_cover 2 (Cert.Spec.mm2 (V c main_v52) (V c main_arg8)) (fun t _ => flushed2_eq V c t) cover2

end Cert.KerRegions

end
-- ==== Proof.KerRegions.lean ====
/-
  The three gridded regions of the program as whole-array functions of the arrays they read: the first dense product
  (50000×128 by 128×64), the normalisation between the layers (pointwise in the 50000×64 input and five 1×64 rows), and
  the second dense product (50000×64 by 64×128). Each region's ten row blocks of 5000 rows tile its output, and each block
  is the corresponding rows of the whole-array function; the three statements are `Cert.KerRegions.region0_array`,
  `region1_array` and `region2_array`.
-/
import proofs.«114351_j46617575030954_2_alg».proof.Proof.KerRegion0
import proofs.«114351_j46617575030954_2_alg».proof.Proof.KerRegion1
import proofs.«114351_j46617575030954_2_alg».proof.Proof.KerRegion2
-- ==== Proof.KerHost.lean ====
/-
  The kernel program's host stretches read as functions: what each stretch of host operations between the pallas_call
  regions leaves in the buffers the later stretches and regions read, from any buffer contents `Wv` at the stretch's
  start. The first stretch builds the edge list with its self-loops and the symmetric normalisation; the second gathers
  the first product's rows, scales them and sums them at their destination rows, and takes the column statistics of the
  sum; the third lays five vectors of 64 out as rows; the last aggregates the second product and adds the output bias.
  Buffers a stretch does not write keep their contents.
-/
import proofs.«114351_j46617575030954_2_alg».proof.Proof.Gen.KernelIdeal.Launch
import proofs.«114351_j46617575030954_2_alg».proof.Proof.Spec
import Idealize.ShloMosaic.Lib.StableHlo.Run
import Idealize.ShloMosaic.Lib.ValueLayout

set_option maxRecDepth 16384
set_option maxHeartbeats 2000000

noncomputable section

namespace Cert.KerSide

open Idealize.ShloMosaic Idealize.ShloMosaic.TcCoe Idealize.SL.Sem Idealize.ShloMosaic.StableHlo Idealize.ShloMosaic.ValueIdx
open Cert.KernelIdeal Cert.KernelIdeal.Gen

attribute [local irreducible] Host.scatterAdd Host.gather Host.reduceAdd concatenate

/-! ## The first stretch: edges, self-loops, normalisation -/

/-- The three runs of operations before the first region, one after the other. -/
abbrev after0 (Wv : Valuation τ sig (Elt Ideal)) : Valuation τ sig (Elt Ideal) :=
  StableHlo.after hostOps0_2 (StableHlo.after hostOps0_1 (StableHlo.after hostOps0 Wv))

theorem ops0_v1 (Wv : Valuation τ sig (Elt Ideal)) :
    (StableHlo.after hostOps0 Wv (Proc.devRef .tc main_v1) : IVec S1050000 32) = Cert.Spec.withLoops (Wv (Proc.devRef .tc main_arg1)) := by
  simp only [hostOps0]; after_results_simp; rfl
theorem ops0_v2 (Wv : Valuation τ sig (Elt Ideal)) :
    (StableHlo.after hostOps0 Wv (Proc.devRef .tc main_v2) : IVec S1050000 32) = Cert.Spec.withLoops (Wv (Proc.devRef .tc main_arg2)) := by
  simp only [hostOps0]; after_results_simp; rfl
theorem ops0_v4 (Wv : Valuation τ sig (Elt Ideal)) :
    (StableHlo.after hostOps0 Wv (Proc.devRef .tc main_v4) : FVec Ideal S1050000 .f32) = Cert.Spec.edgeW (Wv (Proc.devRef .tc main_arg3)) := by
  simp only [hostOps0]; after_results_simp; rfl
theorem ops0_v7 (Wv : Valuation τ sig (Elt Ideal)) :
    (StableHlo.after hostOps0 Wv (Proc.devRef .tc main_v7) : FVec Ideal S50000 .f32)
      = Cert.Spec.deg (Cert.Spec.withLoops (Wv (Proc.devRef .tc main_arg2))) (Cert.Spec.edgeW (Wv (Proc.devRef .tc main_arg3))) := by
  simp only [hostOps0]; after_results_simp; rfl
/-- The degree's comparison with zero, its inverse square root, and the zero put where the degree is not positive. -/
theorem ops0_v9 (Wv : Valuation τ sig (Elt Ideal)) :
    @Eq (IVec S50000 1) (StableHlo.after hostOps0 Wv (Proc.devRef .tc main_v9))
      (cmpf .ogt (StableHlo.after hostOps0 Wv (Proc.devRef .tc main_v7) : FVec Ideal S50000 .f32)
          (broadcastInDim S50000 ![] bcast_S_S50000 (constant (F := Ideal) S_ .f32 0x00000000#32))) := by
  simp only [hostOps0]; after_results_simp
theorem ops0_v10 (Wv : Valuation τ sig (Elt Ideal)) :
    @Eq (FVec Ideal S50000 .f32) (StableHlo.after hostOps0 Wv (Proc.devRef .tc main_v10))
      (Host.rsqrt (StableHlo.after hostOps0 Wv (Proc.devRef .tc main_v7) : FVec Ideal S50000 .f32)) := by
  simp only [hostOps0]; after_results_simp
theorem ops0_cst2 (Wv : Valuation τ sig (Elt Ideal)) :
    @Eq (FVec Ideal S_ .f32) (StableHlo.after hostOps0 Wv (Proc.devRef .tc main_cst_2)) (constant (F := Ideal) S_ .f32 0x00000000#32) := by
  simp only [hostOps0]; after_results_simp

theorem ops01_v11 (Wv : Valuation τ sig (Elt Ideal)) :
    @Eq (FVec Ideal S50000 .f32) (StableHlo.after hostOps0_1 Wv (Proc.devRef .tc main_v11))
      (select (Wv (Proc.devRef .tc main_v9) : IVec S50000 1) (Wv (Proc.devRef .tc main_v10) : FVec Ideal S50000 .f32)
          (broadcastInDim S50000 ![] bcast_S_S50000 (id (Wv (Proc.devRef .tc main_cst_2) : FVec Ideal S_ .f32)))) := by
  simp only [hostOps0_1]; after_results_simp; rfl

theorem ops02_v27 (Wv : Valuation τ sig (Elt Ideal)) :
    @Eq (FVec Ideal S1050000 .f32) (StableHlo.after hostOps0_2 Wv (Proc.devRef .tc main_v27))
      (mulf (mulf (Host.gather gather_S50000_S1050000x1_S1050000_n_0_n_n_0_1_1 (Wv (Proc.devRef .tc main_v11) : FVec Ideal S50000 .f32)
              (Cert.Spec.col (Cert.Spec.wrap (Wv (Proc.devRef .tc main_v1))))) (Wv (Proc.devRef .tc main_v4) : FVec Ideal S1050000 .f32))
          (Host.gather gather_S50000_S1050000x1_S1050000_n_0_n_n_0_1_1 (Wv (Proc.devRef .tc main_v11) : FVec Ideal S50000 .f32)
              (Cert.Spec.col (Cert.Spec.wrap (Wv (Proc.devRef .tc main_v2)))))) := by
  simp only [hostOps0_2]; after_results_simp; rfl

theorem ops0_keep_main_arg0 (Wv : Valuation τ sig (Elt Ideal)) :
    StableHlo.after hostOps0 Wv (Proc.devRef .tc main_arg0) = Wv (Proc.devRef .tc main_arg0) := by
  simp only [hostOps0]; after_results
theorem ops0_keep_main_arg4 (Wv : Valuation τ sig (Elt Ideal)) :
    StableHlo.after hostOps0 Wv (Proc.devRef .tc main_arg4) = Wv (Proc.devRef .tc main_arg4) := by
  simp only [hostOps0]; after_results
theorem ops0_keep_main_arg5 (Wv : Valuation τ sig (Elt Ideal)) :
    StableHlo.after hostOps0 Wv (Proc.devRef .tc main_arg5) = Wv (Proc.devRef .tc main_arg5) := by
  simp only [hostOps0]; after_results
theorem ops0_keep_main_arg6 (Wv : Valuation τ sig (Elt Ideal)) :
    StableHlo.after hostOps0 Wv (Proc.devRef .tc main_arg6) = Wv (Proc.devRef .tc main_arg6) := by
  simp only [hostOps0]; after_results
theorem ops0_keep_main_arg7 (Wv : Valuation τ sig (Elt Ideal)) :
    StableHlo.after hostOps0 Wv (Proc.devRef .tc main_arg7) = Wv (Proc.devRef .tc main_arg7) := by
  simp only [hostOps0]; after_results
theorem ops0_keep_main_arg8 (Wv : Valuation τ sig (Elt Ideal)) :
    StableHlo.after hostOps0 Wv (Proc.devRef .tc main_arg8) = Wv (Proc.devRef .tc main_arg8) := by
  simp only [hostOps0]; after_results
theorem ops0_keep_main_arg9 (Wv : Valuation τ sig (Elt Ideal)) :
    StableHlo.after hostOps0 Wv (Proc.devRef .tc main_arg9) = Wv (Proc.devRef .tc main_arg9) := by
  simp only [hostOps0]; after_results
theorem ops01_keep_main_v1 (Wv : Valuation τ sig (Elt Ideal)) :
    StableHlo.after hostOps0_1 Wv (Proc.devRef .tc main_v1) = Wv (Proc.devRef .tc main_v1) := by
  simp only [hostOps0_1]; after_results
theorem ops01_keep_main_v2 (Wv : Valuation τ sig (Elt Ideal)) :
    StableHlo.after hostOps0_1 Wv (Proc.devRef .tc main_v2) = Wv (Proc.devRef .tc main_v2) := by
  simp only [hostOps0_1]; after_results
theorem ops01_keep_main_v4 (Wv : Valuation τ sig (Elt Ideal)) :
    StableHlo.after hostOps0_1 Wv (Proc.devRef .tc main_v4) = Wv (Proc.devRef .tc main_v4) := by
  simp only [hostOps0_1]; after_results
theorem ops01_keep_main_arg0 (Wv : Valuation τ sig (Elt Ideal)) :
    StableHlo.after hostOps0_1 Wv (Proc.devRef .tc main_arg0) = Wv (Proc.devRef .tc main_arg0) := by
  simp only [hostOps0_1]; after_results
theorem ops01_keep_main_arg4 (Wv : Valuation τ sig (Elt Ideal)) :
    StableHlo.after hostOps0_1 Wv (Proc.devRef .tc main_arg4) = Wv (Proc.devRef .tc main_arg4) := by
  simp only [hostOps0_1]; after_results
theorem ops01_keep_main_arg5 (Wv : Valuation τ sig (Elt Ideal)) :
    StableHlo.after hostOps0_1 Wv (Proc.devRef .tc main_arg5) = Wv (Proc.devRef .tc main_arg5) := by
  simp only [hostOps0_1]; after_results
theorem ops01_keep_main_arg6 (Wv : Valuation τ sig (Elt Ideal)) :
    StableHlo.after hostOps0_1 Wv (Proc.devRef .tc main_arg6) = Wv (Proc.devRef .tc main_arg6) := by
  simp only [hostOps0_1]; after_results
theorem ops01_keep_main_arg7 (Wv : Valuation τ sig (Elt Ideal)) :
    StableHlo.after hostOps0_1 Wv (Proc.devRef .tc main_arg7) = Wv (Proc.devRef .tc main_arg7) := by
  simp only [hostOps0_1]; after_results
theorem ops01_keep_main_arg8 (Wv : Valuation τ sig (Elt Ideal)) :
    StableHlo.after hostOps0_1 Wv (Proc.devRef .tc main_arg8) = Wv (Proc.devRef .tc main_arg8) := by
  simp only [hostOps0_1]; after_results
theorem ops01_keep_main_arg9 (Wv : Valuation τ sig (Elt Ideal)) :
    StableHlo.after hostOps0_1 Wv (Proc.devRef .tc main_arg9) = Wv (Proc.devRef .tc main_arg9) := by
  simp only [hostOps0_1]; after_results
theorem ops02_keep_main_v1 (Wv : Valuation τ sig (Elt Ideal)) :
    StableHlo.after hostOps0_2 Wv (Proc.devRef .tc main_v1) = Wv (Proc.devRef .tc main_v1) := by
  simp only [hostOps0_2]; after_results
theorem ops02_keep_main_v2 (Wv : Valuation τ sig (Elt Ideal)) :
    StableHlo.after hostOps0_2 Wv (Proc.devRef .tc main_v2) = Wv (Proc.devRef .tc main_v2) := by
  simp only [hostOps0_2]; after_results
theorem ops02_keep_main_arg0 (Wv : Valuation τ sig (Elt Ideal)) :
    StableHlo.after hostOps0_2 Wv (Proc.devRef .tc main_arg0) = Wv (Proc.devRef .tc main_arg0) := by
  simp only [hostOps0_2]; after_results
theorem ops02_keep_main_arg4 (Wv : Valuation τ sig (Elt Ideal)) :
    StableHlo.after hostOps0_2 Wv (Proc.devRef .tc main_arg4) = Wv (Proc.devRef .tc main_arg4) := by
  simp only [hostOps0_2]; after_results
theorem ops02_keep_main_arg5 (Wv : Valuation τ sig (Elt Ideal)) :
    StableHlo.after hostOps0_2 Wv (Proc.devRef .tc main_arg5) = Wv (Proc.devRef .tc main_arg5) := by
  simp only [hostOps0_2]; after_results
theorem ops02_keep_main_arg6 (Wv : Valuation τ sig (Elt Ideal)) :
    StableHlo.after hostOps0_2 Wv (Proc.devRef .tc main_arg6) = Wv (Proc.devRef .tc main_arg6) := by
  simp only [hostOps0_2]; after_results
theorem ops02_keep_main_arg7 (Wv : Valuation τ sig (Elt Ideal)) :
    StableHlo.after hostOps0_2 Wv (Proc.devRef .tc main_arg7) = Wv (Proc.devRef .tc main_arg7) := by
  simp only [hostOps0_2]; after_results
theorem ops02_keep_main_arg8 (Wv : Valuation τ sig (Elt Ideal)) :
    StableHlo.after hostOps0_2 Wv (Proc.devRef .tc main_arg8) = Wv (Proc.devRef .tc main_arg8) := by
  simp only [hostOps0_2]; after_results
theorem ops02_keep_main_arg9 (Wv : Valuation τ sig (Elt Ideal)) :
    StableHlo.after hostOps0_2 Wv (Proc.devRef .tc main_arg9) = Wv (Proc.devRef .tc main_arg9) := by
  simp only [hostOps0_2]; after_results

theorem after0_v1 (Wv : Valuation τ sig (Elt Ideal)) :
    (after0 Wv (Proc.devRef .tc main_v1) : IVec S1050000 32) = Cert.Spec.withLoops (Wv (Proc.devRef .tc main_arg1)) :=
  (ops02_keep_main_v1 _).trans ((ops01_keep_main_v1 _).trans (ops0_v1 Wv))

theorem after0_v2 (Wv : Valuation τ sig (Elt Ideal)) :
    (after0 Wv (Proc.devRef .tc main_v2) : IVec S1050000 32) = Cert.Spec.withLoops (Wv (Proc.devRef .tc main_arg2)) :=
  (ops02_keep_main_v2 _).trans ((ops01_keep_main_v2 _).trans (ops0_v2 Wv))

/-- The normalisation: the inverse square roots of the degree gathered at the two ends of every edge, times the weight. -/
theorem after0_v27 (Wv : Valuation τ sig (Elt Ideal)) :
    (after0 Wv (Proc.devRef .tc main_v27) : FVec Ideal S1050000 .f32)
      = Cert.Spec.norm (Cert.Spec.withLoops (Wv (Proc.devRef .tc main_arg1))) (Cert.Spec.withLoops (Wv (Proc.devRef .tc main_arg2)))
          (Cert.Spec.edgeW (Wv (Proc.devRef .tc main_arg3))) := by
  refine (ops02_v27 _).trans ?_
  rw [ops01_v11, ops01_keep_main_v1, ops01_keep_main_v2, ops01_keep_main_v4, ops0_v9, ops0_v10, ops0_cst2, ops0_v7, ops0_v1, ops0_v2,
    ops0_v4]
  rfl

theorem after0_keep_main_arg0 (Wv : Valuation τ sig (Elt Ideal)) :
    after0 Wv (Proc.devRef .tc main_arg0) = Wv (Proc.devRef .tc main_arg0) :=
  (ops02_keep_main_arg0 _).trans ((ops01_keep_main_arg0 _).trans (ops0_keep_main_arg0 Wv))
theorem after0_keep_main_arg4 (Wv : Valuation τ sig (Elt Ideal)) :
    after0 Wv (Proc.devRef .tc main_arg4) = Wv (Proc.devRef .tc main_arg4) :=
  (ops02_keep_main_arg4 _).trans ((ops01_keep_main_arg4 _).trans (ops0_keep_main_arg4 Wv))
theorem after0_keep_main_arg5 (Wv : Valuation τ sig (Elt Ideal)) :
    after0 Wv (Proc.devRef .tc main_arg5) = Wv (Proc.devRef .tc main_arg5) :=
  (ops02_keep_main_arg5 _).trans ((ops01_keep_main_arg5 _).trans (ops0_keep_main_arg5 Wv))
theorem after0_keep_main_arg6 (Wv : Valuation τ sig (Elt Ideal)) :
    after0 Wv (Proc.devRef .tc main_arg6) = Wv (Proc.devRef .tc main_arg6) :=
  (ops02_keep_main_arg6 _).trans ((ops01_keep_main_arg6 _).trans (ops0_keep_main_arg6 Wv))
theorem after0_keep_main_arg7 (Wv : Valuation τ sig (Elt Ideal)) :
    after0 Wv (Proc.devRef .tc main_arg7) = Wv (Proc.devRef .tc main_arg7) :=
  (ops02_keep_main_arg7 _).trans ((ops01_keep_main_arg7 _).trans (ops0_keep_main_arg7 Wv))
theorem after0_keep_main_arg8 (Wv : Valuation τ sig (Elt Ideal)) :
    after0 Wv (Proc.devRef .tc main_arg8) = Wv (Proc.devRef .tc main_arg8) :=
  (ops02_keep_main_arg8 _).trans ((ops01_keep_main_arg8 _).trans (ops0_keep_main_arg8 Wv))
theorem after0_keep_main_arg9 (Wv : Valuation τ sig (Elt Ideal)) :
    after0 Wv (Proc.devRef .tc main_arg9) = Wv (Proc.devRef .tc main_arg9) :=
  (ops02_keep_main_arg9 _).trans ((ops01_keep_main_arg9 _).trans (ops0_keep_main_arg9 Wv))

/-! ## The second stretch: the first aggregation and its column statistics -/

theorem ops1_v41 (Wv : Valuation τ sig (Elt Ideal)) :
    (StableHlo.after hostOps1 Wv (Proc.devRef .tc main_v41) : FVec Ideal S50000x64 .f32)
      = Cert.Spec.conv64 (Wv (Proc.devRef .tc main_v1)) (Wv (Proc.devRef .tc main_v2)) (Wv (Proc.devRef .tc main_v27))
          (Wv (Proc.devRef .tc main_v28)) := by
  simp only [hostOps1]; after_results_simp; rfl

theorem ops1_v45 (Wv : Valuation τ sig (Elt Ideal)) :
    (StableHlo.after hostOps1 Wv (Proc.devRef .tc main_v45) : FVec Ideal S64 .f32)
      = Cert.Spec.meanK (Cert.Spec.conv64 (Wv (Proc.devRef .tc main_v1)) (Wv (Proc.devRef .tc main_v2)) (Wv (Proc.devRef .tc main_v27))
          (Wv (Proc.devRef .tc main_v28))) (Wv (Proc.devRef .tc main_arg5)) := by
  simp only [hostOps1]; after_results_simp; rfl

theorem ops1_c11 (Wv : Valuation τ sig (Elt Ideal)) :
    @Eq (IVec S_ 32) (StableHlo.after hostOps1 Wv (Proc.devRef .tc main_c_11)) (constantI S_ 32 0#32) := by
  simp only [hostOps1]; after_results_simp

theorem ops1_keep_main_v1 (Wv : Valuation τ sig (Elt Ideal)) :
    StableHlo.after hostOps1 Wv (Proc.devRef .tc main_v1) = Wv (Proc.devRef .tc main_v1) := by
  simp only [hostOps1]; after_results_simp
theorem ops1_keep_main_v2 (Wv : Valuation τ sig (Elt Ideal)) :
    StableHlo.after hostOps1 Wv (Proc.devRef .tc main_v2) = Wv (Proc.devRef .tc main_v2) := by
  simp only [hostOps1]; after_results_simp
theorem ops1_keep_main_v27 (Wv : Valuation τ sig (Elt Ideal)) :
    StableHlo.after hostOps1 Wv (Proc.devRef .tc main_v27) = Wv (Proc.devRef .tc main_v27) := by
  simp only [hostOps1]; after_results_simp
theorem ops1_keep_main_arg5 (Wv : Valuation τ sig (Elt Ideal)) :
    StableHlo.after hostOps1 Wv (Proc.devRef .tc main_arg5) = Wv (Proc.devRef .tc main_arg5) := by
  simp only [hostOps1]; after_results_simp
theorem ops1_keep_main_arg6 (Wv : Valuation τ sig (Elt Ideal)) :
    StableHlo.after hostOps1 Wv (Proc.devRef .tc main_arg6) = Wv (Proc.devRef .tc main_arg6) := by
  simp only [hostOps1]; after_results_simp
theorem ops1_keep_main_arg7 (Wv : Valuation τ sig (Elt Ideal)) :
    StableHlo.after hostOps1 Wv (Proc.devRef .tc main_arg7) = Wv (Proc.devRef .tc main_arg7) := by
  simp only [hostOps1]; after_results_simp
theorem ops1_keep_main_arg8 (Wv : Valuation τ sig (Elt Ideal)) :
    StableHlo.after hostOps1 Wv (Proc.devRef .tc main_arg8) = Wv (Proc.devRef .tc main_arg8) := by
  simp only [hostOps1]; after_results_simp
theorem ops1_keep_main_arg9 (Wv : Valuation τ sig (Elt Ideal)) :
    StableHlo.after hostOps1 Wv (Proc.devRef .tc main_arg9) = Wv (Proc.devRef .tc main_arg9) := by
  simp only [hostOps1]; after_results_simp

theorem ops11_v46 (Wv : Valuation τ sig (Elt Ideal)) (h0 : (Wv (Proc.devRef .tc main_c_11) : IVec S_ 32) = constantI S_ 32 0#32) :
    (StableHlo.after hostOps1_1 Wv (Proc.devRef .tc main_v46) : FVec Ideal S64 .f32)
      = Cert.Spec.varOf (Wv (Proc.devRef .tc main_v41)) := by
  simp only [hostOps1_1]; after_results_simp; rw [h0]; rfl

theorem ops11_keep_main_v41 (Wv : Valuation τ sig (Elt Ideal)) :
    StableHlo.after hostOps1_1 Wv (Proc.devRef .tc main_v41) = Wv (Proc.devRef .tc main_v41) := by
  simp only [hostOps1_1]; after_results_simp
theorem ops11_keep_main_v45 (Wv : Valuation τ sig (Elt Ideal)) :
    StableHlo.after hostOps1_1 Wv (Proc.devRef .tc main_v45) = Wv (Proc.devRef .tc main_v45) := by
  simp only [hostOps1_1]; after_results_simp
theorem ops11_keep_main_v1 (Wv : Valuation τ sig (Elt Ideal)) :
    StableHlo.after hostOps1_1 Wv (Proc.devRef .tc main_v1) = Wv (Proc.devRef .tc main_v1) := by
  simp only [hostOps1_1]; after_results_simp
theorem ops11_keep_main_v2 (Wv : Valuation τ sig (Elt Ideal)) :
    StableHlo.after hostOps1_1 Wv (Proc.devRef .tc main_v2) = Wv (Proc.devRef .tc main_v2) := by
  simp only [hostOps1_1]; after_results_simp
theorem ops11_keep_main_v27 (Wv : Valuation τ sig (Elt Ideal)) :
    StableHlo.after hostOps1_1 Wv (Proc.devRef .tc main_v27) = Wv (Proc.devRef .tc main_v27) := by
  simp only [hostOps1_1]; after_results_simp
theorem ops11_keep_main_arg5 (Wv : Valuation τ sig (Elt Ideal)) :
    StableHlo.after hostOps1_1 Wv (Proc.devRef .tc main_arg5) = Wv (Proc.devRef .tc main_arg5) := by
  simp only [hostOps1_1]; after_results_simp
theorem ops11_keep_main_arg6 (Wv : Valuation τ sig (Elt Ideal)) :
    StableHlo.after hostOps1_1 Wv (Proc.devRef .tc main_arg6) = Wv (Proc.devRef .tc main_arg6) := by
  simp only [hostOps1_1]; after_results_simp
theorem ops11_keep_main_arg7 (Wv : Valuation τ sig (Elt Ideal)) :
    StableHlo.after hostOps1_1 Wv (Proc.devRef .tc main_arg7) = Wv (Proc.devRef .tc main_arg7) := by
  simp only [hostOps1_1]; after_results_simp
theorem ops11_keep_main_arg8 (Wv : Valuation τ sig (Elt Ideal)) :
    StableHlo.after hostOps1_1 Wv (Proc.devRef .tc main_arg8) = Wv (Proc.devRef .tc main_arg8) := by
  simp only [hostOps1_1]; after_results_simp
theorem ops11_keep_main_arg9 (Wv : Valuation τ sig (Elt Ideal)) :
    StableHlo.after hostOps1_1 Wv (Proc.devRef .tc main_arg9) = Wv (Proc.devRef .tc main_arg9) := by
  simp only [hostOps1_1]; after_results_simp

/-! ## The third stretch: vectors of 64 laid out as rows -/

/-- A vector of 64 cast to shape 1×64 is the vector read along the second coordinate. -/
theorem cast_eq_flat (v : FVec Ideal S64 .f32) (h : S64.ShapeCasts S1x64) :
    (shapeCast S1x64 v h : FVec Ideal S1x64 .f32) = Cert.Spec.flat v := by
  funext i
  obtain ⟨u, j, rfl⟩ : ∃ (u : Fin 1) (j : Fin 64), i = ix2 u j := ⟨i 0, i 1, eq_ix2 i⟩
  exact shapeCast_a_1a_apply v h u j

theorem ops12_main_v47 (Wv : Valuation τ sig (Elt Ideal)) :
    (StableHlo.after hostOps1_2 Wv (Proc.devRef .tc main_v47) : FVec Ideal S1x64 .f32) = Cert.Spec.flat (Wv (Proc.devRef .tc main_arg5)) := by
  simp only [hostOps1_2]; after_results_simp; exact cast_eq_flat _ _
theorem ops12_main_v48 (Wv : Valuation τ sig (Elt Ideal)) :
    (StableHlo.after hostOps1_2 Wv (Proc.devRef .tc main_v48) : FVec Ideal S1x64 .f32) = Cert.Spec.flat (Wv (Proc.devRef .tc main_v45)) := by
  simp only [hostOps1_2]; after_results_simp; exact cast_eq_flat _ _
theorem ops12_main_v49 (Wv : Valuation τ sig (Elt Ideal)) :
    (StableHlo.after hostOps1_2 Wv (Proc.devRef .tc main_v49) : FVec Ideal S1x64 .f32) = Cert.Spec.flat (Wv (Proc.devRef .tc main_v46)) := by
  simp only [hostOps1_2]; after_results_simp; exact cast_eq_flat _ _
theorem ops12_main_v50 (Wv : Valuation τ sig (Elt Ideal)) :
    (StableHlo.after hostOps1_2 Wv (Proc.devRef .tc main_v50) : FVec Ideal S1x64 .f32) = Cert.Spec.flat (Wv (Proc.devRef .tc main_arg6)) := by
  simp only [hostOps1_2]; after_results_simp; exact cast_eq_flat _ _
theorem ops12_main_v51 (Wv : Valuation τ sig (Elt Ideal)) :
    (StableHlo.after hostOps1_2 Wv (Proc.devRef .tc main_v51) : FVec Ideal S1x64 .f32) = Cert.Spec.flat (Wv (Proc.devRef .tc main_arg7)) := by
  simp only [hostOps1_2]; after_results_simp; exact cast_eq_flat _ _

theorem ops12_keep_main_v41 (Wv : Valuation τ sig (Elt Ideal)) :
    StableHlo.after hostOps1_2 Wv (Proc.devRef .tc main_v41) = Wv (Proc.devRef .tc main_v41) := by
  simp only [hostOps1_2]; after_results_simp
theorem ops12_keep_main_v1 (Wv : Valuation τ sig (Elt Ideal)) :
    StableHlo.after hostOps1_2 Wv (Proc.devRef .tc main_v1) = Wv (Proc.devRef .tc main_v1) := by
  simp only [hostOps1_2]; after_results_simp
theorem ops12_keep_main_v2 (Wv : Valuation τ sig (Elt Ideal)) :
    StableHlo.after hostOps1_2 Wv (Proc.devRef .tc main_v2) = Wv (Proc.devRef .tc main_v2) := by
  simp only [hostOps1_2]; after_results_simp
theorem ops12_keep_main_v27 (Wv : Valuation τ sig (Elt Ideal)) :
    StableHlo.after hostOps1_2 Wv (Proc.devRef .tc main_v27) = Wv (Proc.devRef .tc main_v27) := by
  simp only [hostOps1_2]; after_results_simp
theorem ops12_keep_main_arg8 (Wv : Valuation τ sig (Elt Ideal)) :
    StableHlo.after hostOps1_2 Wv (Proc.devRef .tc main_arg8) = Wv (Proc.devRef .tc main_arg8) := by
  simp only [hostOps1_2]; after_results_simp
theorem ops12_keep_main_arg9 (Wv : Valuation τ sig (Elt Ideal)) :
    StableHlo.after hostOps1_2 Wv (Proc.devRef .tc main_arg9) = Wv (Proc.devRef .tc main_arg9) := by
  simp only [hostOps1_2]; after_results_simp

/-! ## The last stretch: the second aggregation and the output bias -/

theorem ops3_v69 (Wv : Valuation τ sig (Elt Ideal)) :
    (StableHlo.after hostOps3 Wv (Proc.devRef .tc main_v69) : FVec Ideal S50000x128 .f32)
      = Cert.Spec.out128 (Wv (Proc.devRef .tc main_v1)) (Wv (Proc.devRef .tc main_v2)) (Wv (Proc.devRef .tc main_v27))
          (Wv (Proc.devRef .tc main_v53)) (Wv (Proc.devRef .tc main_arg9)) := by
  simp only [hostOps3]; after_results_simp; rfl

end Cert.KerSide

end
-- ==== Proof.KerValue.lean ====
/-
  The kernel program's result as a function of its ten arguments. The run's boundary contents are walked from the
  launch memory to the result buffer: the first host stretch leaves the edge list with its self-loops and the symmetric
  normalisation; region 0 leaves the first dense product; the second stretch gathers its rows, scales and sums them
  (the first aggregation) and takes the column mean (plus the bias) and the column variance of that sum; the third lays
  the bias, the corrected mean, the variance and the two affine vectors out as rows; region 1 normalises, scales, shifts
  and clips every entry; region 2 leaves the second dense product; the last stretch aggregates it and adds the output
  bias. Buffers that a region or a stretch does not write are carried unchanged, so the edge list and the
  normalisation computed once serve both layers.
-/
import proofs.«114351_j46617575030954_2_alg».proof.Proof.Gen.KernelIdeal.Frame
import proofs.«114351_j46617575030954_2_alg».proof.Proof.KerRegions
import proofs.«114351_j46617575030954_2_alg».proof.Proof.KerHost
import proofs.«114351_j46617575030954_2_alg».proof.Proof.Spec

set_option maxRecDepth 16384

noncomputable section

namespace Cert.KerSide

open Idealize.ShloMosaic Idealize.ShloMosaic.TcCoe Idealize.SL.Sem Idealize.ShloMosaic.StableHlo Idealize.ShloMosaic.ValueIdx
open Cert.KernelIdeal Cert.KernelIdeal.Gen Cert.Spec

variable (m : (ℓ : Loc nD τ sig) → Buf (Elt Ideal) ℓ) (ρ : Dev nD → PrngReg) (c : Dev nD)

/-! ## No region's arrays are among the buffers carried past it -/

theorem ne0 (b : Ref sig .tc) (h : b ≠ main_arg0 ∧ b ≠ main_arg4 ∧ b ≠ main_v28) : ∀ w, Pipeline.arrRef spec0 w ≠ b := by
  intro w e; subst e
  match w with
  | ⟨0, _⟩ => exact h.1 rfl
  | ⟨1, _⟩ => exact h.2.1 rfl
  | ⟨2, _⟩ => exact h.2.2 rfl

theorem ne1 (b : Ref sig .tc) (h : b ≠ main_v41 ∧ b ≠ main_v47 ∧ b ≠ main_v48 ∧ b ≠ main_v49 ∧ b ≠ main_v50 ∧ b ≠ main_v51 ∧ b ≠ main_v52) :
    ∀ w, Pipeline.arrRef spec1 w ≠ b := by
  intro w e; subst e
  match w with
  | ⟨0, _⟩ => exact h.1 rfl
  | ⟨1, _⟩ => exact h.2.1 rfl
  | ⟨2, _⟩ => exact h.2.2.1 rfl
  | ⟨3, _⟩ => exact h.2.2.2.1 rfl
  | ⟨4, _⟩ => exact h.2.2.2.2.1 rfl
  | ⟨5, _⟩ => exact h.2.2.2.2.2.1 rfl
  | ⟨6, _⟩ => exact h.2.2.2.2.2.2 rfl

theorem ne2 (b : Ref sig .tc) (h : b ≠ main_v52 ∧ b ≠ main_arg8 ∧ b ≠ main_v53) : ∀ w, Pipeline.arrRef spec2 w ≠ b := by
  intro w e; subst e
  match w with
  | ⟨0, _⟩ => exact h.1 rfl
  | ⟨1, _⟩ => exact h.2.1 rfl
  | ⟨2, _⟩ => exact h.2.2 rfl

/-! ## The edge list and the normalisation, carried to every later boundary -/

/-- The edge sources and destinations with their self-loops, and the normalisation, as the first stretch leaves them. -/
abbrev srcs : IVec S1050000 32 := withLoops (m ((c.tc : Thread nD τ).loc main_arg1))
abbrev dsts : IVec S1050000 32 := withLoops (m ((c.tc : Thread nD τ).loc main_arg2))
abbrev nrm : FVec Ideal S1050000 .f32 := norm (srcs m c) (dsts m c) (edgeW (m ((c.tc : Thread nD τ).loc main_arg3)))

theorem W3_v1 : (W3 m ρ c (Proc.devRef .tc main_v1) : IVec S1050000 32) = srcs m c := after0_v1 (W0 m ρ c)
theorem W3_v2 : (W3 m ρ c (Proc.devRef .tc main_v2) : IVec S1050000 32) = dsts m c := after0_v2 (W0 m ρ c)
theorem W3_v27 : (W3 m ρ c (Proc.devRef .tc main_v27) : FVec Ideal S1050000 .f32) = nrm m c := after0_v27 (W0 m ρ c)
theorem W3_main_arg0 : W3 m ρ c (Proc.devRef .tc main_arg0) = m ((c.tc : Thread nD τ).loc main_arg0) := after0_keep_main_arg0 (W0 m ρ c)
theorem W3_main_arg4 : W3 m ρ c (Proc.devRef .tc main_arg4) = m ((c.tc : Thread nD τ).loc main_arg4) := after0_keep_main_arg4 (W0 m ρ c)
theorem W3_main_arg5 : W3 m ρ c (Proc.devRef .tc main_arg5) = m ((c.tc : Thread nD τ).loc main_arg5) := after0_keep_main_arg5 (W0 m ρ c)
theorem W3_main_arg6 : W3 m ρ c (Proc.devRef .tc main_arg6) = m ((c.tc : Thread nD τ).loc main_arg6) := after0_keep_main_arg6 (W0 m ρ c)
theorem W3_main_arg7 : W3 m ρ c (Proc.devRef .tc main_arg7) = m ((c.tc : Thread nD τ).loc main_arg7) := after0_keep_main_arg7 (W0 m ρ c)
theorem W3_main_arg8 : W3 m ρ c (Proc.devRef .tc main_arg8) = m ((c.tc : Thread nD τ).loc main_arg8) := after0_keep_main_arg8 (W0 m ρ c)
theorem W3_main_arg9 : W3 m ρ c (Proc.devRef .tc main_arg9) = m ((c.tc : Thread nD τ).loc main_arg9) := after0_keep_main_arg9 (W0 m ρ c)

theorem W4_main_v1 : W4 m ρ c (Proc.devRef .tc main_v1) = W3 m ρ c (Proc.devRef .tc main_v1) :=
  W4_of_ne m ρ c main_v1 (ne0 main_v1 (by decide))
theorem W4_main_v2 : W4 m ρ c (Proc.devRef .tc main_v2) = W3 m ρ c (Proc.devRef .tc main_v2) :=
  W4_of_ne m ρ c main_v2 (ne0 main_v2 (by decide))
theorem W4_main_v27 : W4 m ρ c (Proc.devRef .tc main_v27) = W3 m ρ c (Proc.devRef .tc main_v27) :=
  W4_of_ne m ρ c main_v27 (ne0 main_v27 (by decide))
theorem W4_main_arg5 : W4 m ρ c (Proc.devRef .tc main_arg5) = W3 m ρ c (Proc.devRef .tc main_arg5) :=
  W4_of_ne m ρ c main_arg5 (ne0 main_arg5 (by decide))
theorem W4_main_arg6 : W4 m ρ c (Proc.devRef .tc main_arg6) = W3 m ρ c (Proc.devRef .tc main_arg6) :=
  W4_of_ne m ρ c main_arg6 (ne0 main_arg6 (by decide))
theorem W4_main_arg7 : W4 m ρ c (Proc.devRef .tc main_arg7) = W3 m ρ c (Proc.devRef .tc main_arg7) :=
  W4_of_ne m ρ c main_arg7 (ne0 main_arg7 (by decide))
theorem W4_main_arg8 : W4 m ρ c (Proc.devRef .tc main_arg8) = W3 m ρ c (Proc.devRef .tc main_arg8) :=
  W4_of_ne m ρ c main_arg8 (ne0 main_arg8 (by decide))
theorem W4_main_arg9 : W4 m ρ c (Proc.devRef .tc main_arg9) = W3 m ρ c (Proc.devRef .tc main_arg9) :=
  W4_of_ne m ρ c main_arg9 (ne0 main_arg9 (by decide))

theorem W7_main_v1 : W7 m ρ c (Proc.devRef .tc main_v1) = W4 m ρ c (Proc.devRef .tc main_v1) :=
  (ops12_keep_main_v1 (W6 m ρ c)).trans ((ops11_keep_main_v1 (W5 m ρ c)).trans (ops1_keep_main_v1 (W4 m ρ c)))
theorem W7_main_v2 : W7 m ρ c (Proc.devRef .tc main_v2) = W4 m ρ c (Proc.devRef .tc main_v2) :=
  (ops12_keep_main_v2 (W6 m ρ c)).trans ((ops11_keep_main_v2 (W5 m ρ c)).trans (ops1_keep_main_v2 (W4 m ρ c)))
theorem W7_main_v27 : W7 m ρ c (Proc.devRef .tc main_v27) = W4 m ρ c (Proc.devRef .tc main_v27) :=
  (ops12_keep_main_v27 (W6 m ρ c)).trans ((ops11_keep_main_v27 (W5 m ρ c)).trans (ops1_keep_main_v27 (W4 m ρ c)))
theorem W7_main_arg8 : W7 m ρ c (Proc.devRef .tc main_arg8) = W4 m ρ c (Proc.devRef .tc main_arg8) :=
  (ops12_keep_main_arg8 (W6 m ρ c)).trans ((ops11_keep_main_arg8 (W5 m ρ c)).trans (ops1_keep_main_arg8 (W4 m ρ c)))
theorem W7_main_arg9 : W7 m ρ c (Proc.devRef .tc main_arg9) = W4 m ρ c (Proc.devRef .tc main_arg9) :=
  (ops12_keep_main_arg9 (W6 m ρ c)).trans ((ops11_keep_main_arg9 (W5 m ρ c)).trans (ops1_keep_main_arg9 (W4 m ρ c)))

theorem W8_main_v1 : W8 m ρ c (Proc.devRef .tc main_v1) = W7 m ρ c (Proc.devRef .tc main_v1) :=
  W8_of_ne m ρ c main_v1 (ne1 main_v1 (by decide))
theorem W8_main_v2 : W8 m ρ c (Proc.devRef .tc main_v2) = W7 m ρ c (Proc.devRef .tc main_v2) :=
  W8_of_ne m ρ c main_v2 (ne1 main_v2 (by decide))
theorem W8_main_v27 : W8 m ρ c (Proc.devRef .tc main_v27) = W7 m ρ c (Proc.devRef .tc main_v27) :=
  W8_of_ne m ρ c main_v27 (ne1 main_v27 (by decide))
theorem W8_main_arg8 : W8 m ρ c (Proc.devRef .tc main_arg8) = W7 m ρ c (Proc.devRef .tc main_arg8) :=
  W8_of_ne m ρ c main_arg8 (ne1 main_arg8 (by decide))
theorem W8_main_arg9 : W8 m ρ c (Proc.devRef .tc main_arg9) = W7 m ρ c (Proc.devRef .tc main_arg9) :=
  W8_of_ne m ρ c main_arg9 (ne1 main_arg9 (by decide))

theorem W9_main_v1 : W9 m ρ c (Proc.devRef .tc main_v1) = W8 m ρ c (Proc.devRef .tc main_v1) :=
  W9_of_ne m ρ c main_v1 (ne2 main_v1 (by decide))
theorem W9_main_v2 : W9 m ρ c (Proc.devRef .tc main_v2) = W8 m ρ c (Proc.devRef .tc main_v2) :=
  W9_of_ne m ρ c main_v2 (ne2 main_v2 (by decide))
theorem W9_main_v27 : W9 m ρ c (Proc.devRef .tc main_v27) = W8 m ρ c (Proc.devRef .tc main_v27) :=
  W9_of_ne m ρ c main_v27 (ne2 main_v27 (by decide))
theorem W9_main_arg9 : W9 m ρ c (Proc.devRef .tc main_arg9) = W8 m ρ c (Proc.devRef .tc main_arg9) :=
  W9_of_ne m ρ c main_arg9 (ne2 main_arg9 (by decide))

/-! ## The three regions' outputs and the stretches between them -/

/-- The first dense product, as region 0 leaves it. -/
theorem W4_v28 : (W4 m ρ c (Proc.devRef .tc main_v28) : FVec Ideal S50000x64 .f32)
    = mm1 (m ((c.tc : Thread nD τ).loc main_arg0)) (m ((c.tc : Thread nD τ).loc main_arg4)) := by
  refine (W4_arr m ρ c 2).trans ((Cert.KerRegions.region0_array (V3 m ρ) c).trans ?_)
  show mm1 (W3 m ρ c (Proc.devRef .tc main_arg0)) (W3 m ρ c (Proc.devRef .tc main_arg4)) = _
  rw [W3_main_arg0, W3_main_arg4]

/-- The first aggregation: the scaled rows of the first product summed at their destinations. -/
abbrev agg1 : FVec Ideal S50000x64 .f32 :=
  conv64 (srcs m c) (dsts m c) (nrm m c) (mm1 (m ((c.tc : Thread nD τ).loc main_arg0)) (m ((c.tc : Thread nD τ).loc main_arg4)))

theorem W5_v41 : (W5 m ρ c (Proc.devRef .tc main_v41) : FVec Ideal S50000x64 .f32) = agg1 m c := by
  refine (ops1_v41 (W4 m ρ c)).trans ?_
  rw [W4_main_v1, W4_main_v2, W4_main_v27, W4_v28, W3_v1, W3_v2, W3_v27]

theorem W5_v45 : (W5 m ρ c (Proc.devRef .tc main_v45) : FVec Ideal S64 .f32)
    = meanK (agg1 m c) (m ((c.tc : Thread nD τ).loc main_arg5)) := by
  refine (ops1_v45 (W4 m ρ c)).trans ?_
  rw [W4_main_v1, W4_main_v2, W4_main_v27, W4_v28, W3_v1, W3_v2, W3_v27, W4_main_arg5, W3_main_arg5]

theorem W6_v46 : (W6 m ρ c (Proc.devRef .tc main_v46) : FVec Ideal S64 .f32) = varOf (agg1 m c) := by
  refine (ops11_v46 (W5 m ρ c) (ops1_c11 (W4 m ρ c))).trans ?_
  rw [W5_v41]

theorem W7_v41 : (W7 m ρ c (Proc.devRef .tc main_v41) : FVec Ideal S50000x64 .f32) = agg1 m c :=
  (ops12_keep_main_v41 (W6 m ρ c)).trans ((ops11_keep_main_v41 (W5 m ρ c)).trans (W5_v41 m ρ c))

theorem W7_v47 : (W7 m ρ c (Proc.devRef .tc main_v47) : FVec Ideal S1x64 .f32) = flat (m ((c.tc : Thread nD τ).loc main_arg5)) := by
  refine (ops12_main_v47 (W6 m ρ c)).trans (congrArg flat ?_)
  exact (ops11_keep_main_arg5 (W5 m ρ c)).trans ((ops1_keep_main_arg5 (W4 m ρ c)).trans ((W4_main_arg5 m ρ c).trans (W3_main_arg5 m ρ c)))

theorem W7_v48 : (W7 m ρ c (Proc.devRef .tc main_v48) : FVec Ideal S1x64 .f32)
    = flat (meanK (agg1 m c) (m ((c.tc : Thread nD τ).loc main_arg5))) := by
  refine (ops12_main_v48 (W6 m ρ c)).trans (congrArg flat ?_)
  exact (ops11_keep_main_v45 (W5 m ρ c)).trans (W5_v45 m ρ c)

theorem W7_v49 : (W7 m ρ c (Proc.devRef .tc main_v49) : FVec Ideal S1x64 .f32) = flat (varOf (agg1 m c)) := by
  refine (ops12_main_v49 (W6 m ρ c)).trans (congrArg flat ?_)
  exact W6_v46 m ρ c

theorem W7_v50 : (W7 m ρ c (Proc.devRef .tc main_v50) : FVec Ideal S1x64 .f32) = flat (m ((c.tc : Thread nD τ).loc main_arg6)) := by
  refine (ops12_main_v50 (W6 m ρ c)).trans (congrArg flat ?_)
  exact (ops11_keep_main_arg6 (W5 m ρ c)).trans ((ops1_keep_main_arg6 (W4 m ρ c)).trans ((W4_main_arg6 m ρ c).trans (W3_main_arg6 m ρ c)))

theorem W7_v51 : (W7 m ρ c (Proc.devRef .tc main_v51) : FVec Ideal S1x64 .f32) = flat (m ((c.tc : Thread nD τ).loc main_arg7)) := by
  refine (ops12_main_v51 (W6 m ρ c)).trans (congrArg flat ?_)
  exact (ops11_keep_main_arg7 (W5 m ρ c)).trans ((ops1_keep_main_arg7 (W4 m ρ c)).trans ((W4_main_arg7 m ρ c).trans (W3_main_arg7 m ρ c)))

/-- The normalisation layer's output, as region 1 leaves it. -/
abbrev hid : FVec Ideal S50000x64 .f32 :=
  bnK (agg1 m c) (flat (m ((c.tc : Thread nD τ).loc main_arg5))) (flat (meanK (agg1 m c) (m ((c.tc : Thread nD τ).loc main_arg5))))
    (flat (varOf (agg1 m c))) (flat (m ((c.tc : Thread nD τ).loc main_arg6))) (flat (m ((c.tc : Thread nD τ).loc main_arg7)))

theorem W8_v52 : (W8 m ρ c (Proc.devRef .tc main_v52) : FVec Ideal S50000x64 .f32) = hid m c := by
  refine (W8_arr m ρ c 6).trans ((Cert.KerRegions.region1_array (V7 m ρ) c).trans ?_)
  show bnK (W7 m ρ c (Proc.devRef .tc main_v41)) (W7 m ρ c (Proc.devRef .tc main_v47)) (W7 m ρ c (Proc.devRef .tc main_v48))
      (W7 m ρ c (Proc.devRef .tc main_v49)) (W7 m ρ c (Proc.devRef .tc main_v50)) (W7 m ρ c (Proc.devRef .tc main_v51)) = _
  rw [W7_v41, W7_v47, W7_v48, W7_v49, W7_v50, W7_v51]

/-- The second dense product, as region 2 leaves it. -/
theorem W9_v53 : (W9 m ρ c (Proc.devRef .tc main_v53) : FVec Ideal S50000x128 .f32)
    = mm2 (hid m c) (m ((c.tc : Thread nD τ).loc main_arg8)) := by
  refine (W9_arr m ρ c 2).trans ((Cert.KerRegions.region2_array (V8 m ρ) c).trans ?_)
  show mm2 (W8 m ρ c (Proc.devRef .tc main_v52)) (W8 m ρ c (Proc.devRef .tc main_arg8)) = _
  rw [W8_v52, W8_main_arg8, W7_main_arg8, W4_main_arg8, W3_main_arg8]

/-- The result buffer after the last stretch is the specification's function of the ten arguments. -/
theorem result_eq : (W10 m ρ c (Proc.devRef .tc main_v69) : FVec Ideal S50000x128 .f32)
    = kerG (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  refine (ops3_v69 (W9 m ρ c)).trans ?_
  rw [W9_main_v1, W8_main_v1, W7_main_v1, W4_main_v1, W3_v1, W9_main_v2, W8_main_v2, W7_main_v2, W4_main_v2, W3_v2,
    W9_main_v27, W8_main_v27, W7_main_v27, W4_main_v27, W3_v27, W9_v53, W9_main_arg9, W8_main_arg9, W7_main_arg9, W4_main_arg9,
    W3_main_arg9]
  rfl

end Cert.KerSide

end
-- ==== Proof.RefOps.lean ====
/-
  The reference program's @main as one straight line of host operations.

  @main calls three outlined functions: the first-layer normalisation's `where` (three operations), the column
  variance (twenty-two operations, the last three of them a nested `where`) and the clip at zero (three
  operations). Each call means its callee's body executed on the operands, so the line below lists the callee's
  operations at the call site, over the buffers that call names. The 125 operations are cut into seven stretches
  by what they compute: the edge list with its self-loops; the in-degree with its test and inverse square root; the
  `where` between them; the normalisation of every edge and the first dense product; the first aggregation; the batch normalisation with its affine map and clip; the second dense
  product and aggregation with the output bias.
-/
import proofs.«114351_j46617575030954_2_alg».proof.ReferenceIdeal
import proofs.«114351_j46617575030954_2_alg».proof.Proof.Gen.ReferenceIdeal
import Idealize.ShloMosaic.Lib.StableHlo.Run
import Idealize.ShloMosaic.Lib.Pipeline.Frame

noncomputable section

namespace Cert.RefSide

open Idealize.ShloMosaic Idealize.ShloMosaic.TcCoe Idealize.SL.Sem Cert.ReferenceIdeal
open Cert.ReferenceIdeal.Facts₀ Cert.ReferenceIdeal.Facts

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The edge endpoints and weights with one self-loop per node appended: the node numbers `0 … 49999` after the given
    sources and after the given destinations, weight one after the given weights. -/
abbrev seg0 : List (HloOp τ sig (Elt F)) :=
  [ StableHlo.nullary main_v0 (iotaInDim S50000 32 0),
    StableHlo.binary main_arg1 main_v0 main_v1 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.binary main_arg2 main_v0 main_v2 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.nullary main_cst (constant S_ .f32 0x3F800000#32),
    StableHlo.unary main_cst main_v3 (broadcastInDim S50000 ![] bcast_S_S50000 : (⟨S_, .f32⟩ : BufTy).Contents (Elt F) → (⟨S50000, .f32⟩ : BufTy).Contents (Elt F)),
    StableHlo.binary main_arg3 main_v3 main_v4 ((fun a b => concatenate S1050000 0 [⟨S1000000, a⟩, ⟨S50000, b⟩] concatenates_S1000000_S50000_S1050000_d0) : (⟨S1000000, .f32⟩ : BufTy).Contents (Elt F) → (⟨S50000, .f32⟩ : BufTy).Contents (Elt F) → (⟨S1050000, .f32⟩ : BufTy).Contents (Elt F)) ]

/-- Each operation of the stretch touches TensorCore references only. -/
theorem seg0_sub : (seg0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub ..⟩

/-- Each operation of the stretch determines its result. -/
theorem seg0_fresh : (seg0 : List (HloOp τ sig (Elt F))).Forall fun op => op.fresh = ∅ := by
  simp only [List.Forall]; repeat' constructor

/-- The references the stretch writes. -/
abbrev seg0_W : List (Ref sig .tc) := [main_v0, main_v1, main_v2, main_cst, main_v3, main_v4]

theorem seg0_writes : (seg0 : List (HloOp τ sig (Elt F))).Forall fun op => op.writes ⊆ (seg0_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem seg0_of (V : Valuation τ sig (Elt F)) (r : Ref sig .tc) (h : r ∉ seg0_W) :
    StableHlo.after seg0 V (Proc.devRef .tc r) = V (Proc.devRef .tc r) :=
  StableHlo.after_of_writes_sub seg0 V seg0_writes h

/-- The weighted in-degree, the test that it is positive and its inverse square root. -/
abbrev segA : List (HloOp τ sig (Elt F)) :=
  [ StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v2 main_v6 (broadcastInDim S1050000x1 ![0] bcast_S1050000_S1050000x1_0 : (⟨S1050000, .i32⟩ : BufTy).Contents (Elt F) → (⟨S1050000x1, .i32⟩ : BufTy).Contents (Elt F)),
    StableHlo.ternary main_v5 main_v6 main_v4 main_v7 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (cmpf .ogt : (⟨S50000, .f32⟩ : BufTy).Contents (Elt F) → (⟨S50000, .f32⟩ : BufTy).Contents (Elt F) → (⟨S50000, .i1⟩ : BufTy).Contents (Elt F)),
    StableHlo.unary main_v7 main_v10 (Host.rsqrt : (⟨S50000, .f32⟩ : BufTy).Contents (Elt F) → (⟨S50000, .f32⟩ : BufTy).Contents (Elt F)),
    StableHlo.nullary main_cst_2 (constant S_ .f32 0x00000000#32) ]

/-- Each operation of the stretch touches TensorCore references only. -/
theorem segA_sub : (segA : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩

/-- Each operation of the stretch determines its result. -/
theorem segA_fresh : (segA : List (HloOp τ sig (Elt F))).Forall fun op => op.fresh = ∅ := by
  simp only [List.Forall]; repeat' constructor

/-- The references the stretch writes. -/
abbrev segA_W : List (Ref sig .tc) := [main_cst_0, main_v5, main_v6, main_v7, main_cst_1, main_v8, main_v9, main_v10, main_cst_2]

theorem segA_writes : (segA : List (HloOp τ sig (Elt F))).Forall fun op => op.writes ⊆ (segA_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segA_of (V : Valuation τ sig (Elt F)) (r : Ref sig .tc) (h : r ∉ segA_W) :
    StableHlo.after segA V (Proc.devRef .tc r) = V (Proc.devRef .tc r) :=
  StableHlo.after_of_writes_sub segA V segA_writes h

/-- The outlined `where`: the inverse square root where the degree is positive, zero elsewhere. -/
abbrev segW : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v9 : StableHlo.TRef sig ⟨S50000, .i1⟩) (.of main_v10 : StableHlo.TRef sig ⟨S50000, .f32⟩) (.of main_call0_v1 : StableHlo.TRef sig ⟨S50000, .f32⟩) (.of main_v11 : StableHlo.TRef sig ⟨S50000, .f32⟩) select ]

/-- Each operation of the stretch touches TensorCore references only. -/
theorem segW_sub : (segW : List (HloOp τ sig (Elt F))).Forall fun op => op.bufs ⊆ StableHlo.tcRefs τ sig :=
  ⟨StableHlo.unary_bufs_sub .., StableHlo.unary_bufs_sub .., StableHlo.ternary_bufs_sub ..⟩

/-- Each operation of the stretch determines its result. -/
theorem segW_fresh : (segW : List (HloOp τ sig (Elt F))).Forall fun op => op.fresh = ∅ := by
  simp only [List.Forall]; repeat' constructor

/-- The references the stretch writes. -/
abbrev segW_W : List (Ref sig .tc) := [main_call0_v0, main_call0_v1, main_v11]

theorem segW_writes : (segW : List (HloOp τ sig (Elt F))).Forall fun op => op.writes ⊆ (segW_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segW_of (V : Valuation τ sig (Elt F)) (r : Ref sig .tc) (h : r ∉ segW_W) :
    StableHlo.after segW V (Proc.devRef .tc r) = V (Proc.devRef .tc r) :=
  StableHlo.after_of_writes_sub segW V segW_writes h

/-- The normalisation of every edge (the inverse square roots gathered at both endpoints, times the weight) and the
    first dense product. -/
abbrev segN : List (HloOp τ sig (Elt F)) :=
  [ StableHlo.nullary main_c (constantI S_ 32 0#32),
    StableHlo.unary main_c main_v12 (broadcastInDim S1050000 ![] bcast_S_S1050000 : (⟨S_, .i32⟩ : BufTy).Contents (Elt F) → (⟨S1050000, .i32⟩ : BufTy).Contents (Elt F)),
    StableHlo.binary main_v1 main_v12 main_v13 (cmpi .slt : (⟨S1050000, .i32⟩ : BufTy).Contents (Elt F) → (⟨S1050000, .i32⟩ : BufTy).Contents (Elt F) → (⟨S1050000, .i1⟩ : BufTy).Contents (Elt F)),
    StableHlo.nullary main_c_3 (constantI S_ 32 50000#32),
    StableHlo.unary main_c_3 main_v14 (broadcastInDim S1050000 ![] bcast_S_S1050000 : (⟨S_, .i32⟩ : BufTy).Contents (Elt F) → (⟨S1050000, .i32⟩ : BufTy).Contents (Elt F)),
    StableHlo.binary main_v1 main_v14 main_v15 (addi : (⟨S1050000, .i32⟩ : BufTy).Contents (Elt F) → (⟨S1050000, .i32⟩ : BufTy).Contents (Elt F) → (⟨S1050000, .i32⟩ : BufTy).Contents (Elt F)),
    StableHlo.ternary main_v13 main_v15 main_v1 main_v16 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v16 main_v17 (broadcastInDim S1050000x1 ![0] bcast_S1050000_S1050000x1_0 : (⟨S1050000, .i32⟩ : BufTy).Contents (Elt F) → (⟨S1050000x1, .i32⟩ : BufTy).Contents (Elt F)),
    StableHlo.binary main_v11 main_v17 main_v18 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.binary main_v18 main_v4 main_v19 (mulf : (⟨S1050000, .f32⟩ : BufTy).Contents (Elt F) → (⟨S1050000, .f32⟩ : BufTy).Contents (Elt F) → (⟨S1050000, .f32⟩ : BufTy).Contents (Elt F)),
    StableHlo.nullary main_c_4 (constantI S_ 32 0#32),
    StableHlo.unary main_c_4 main_v20 (broadcastInDim S1050000 ![] bcast_S_S1050000 : (⟨S_, .i32⟩ : BufTy).Contents (Elt F) → (⟨S1050000, .i32⟩ : BufTy).Contents (Elt F)),
    StableHlo.binary main_v2 main_v20 main_v21 (cmpi .slt : (⟨S1050000, .i32⟩ : BufTy).Contents (Elt F) → (⟨S1050000, .i32⟩ : BufTy).Contents (Elt F) → (⟨S1050000, .i1⟩ : BufTy).Contents (Elt F)),
    StableHlo.nullary main_c_5 (constantI S_ 32 50000#32),
    StableHlo.unary main_c_5 main_v22 (broadcastInDim S1050000 ![] bcast_S_S1050000 : (⟨S_, .i32⟩ : BufTy).Contents (Elt F) → (⟨S1050000, .i32⟩ : BufTy).Contents (Elt F)),
    StableHlo.binary main_v2 main_v22 main_v23 (addi : (⟨S1050000, .i32⟩ : BufTy).Contents (Elt F) → (⟨S1050000, .i32⟩ : BufTy).Contents (Elt F) → (⟨S1050000, .i32⟩ : BufTy).Contents (Elt F)),
    StableHlo.ternary main_v21 main_v23 main_v2 main_v24 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v24 main_v25 (broadcastInDim S1050000x1 ![0] bcast_S1050000_S1050000x1_0 : (⟨S1050000, .i32⟩ : BufTy).Contents (Elt F) → (⟨S1050000x1, .i32⟩ : BufTy).Contents (Elt F)),
    StableHlo.binary main_v11 main_v25 main_v26 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.binary main_v19 main_v26 main_v27 (mulf : (⟨S1050000, .f32⟩ : BufTy).Contents (Elt F) → (⟨S1050000, .f32⟩ : BufTy).Contents (Elt F) → (⟨S1050000, .f32⟩ : BufTy).Contents (Elt F)),
    StableHlo.binary main_arg0 main_arg4 main_v28 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Each operation of the stretch touches TensorCore references only. -/
theorem segN_sub : (segN : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub ..⟩

/-- Each operation of the stretch determines its result. -/
theorem segN_fresh : (segN : List (HloOp τ sig (Elt F))).Forall fun op => op.fresh = ∅ := by
  simp only [List.Forall]; repeat' constructor

/-- The references the stretch writes. -/
abbrev segN_W : List (Ref sig .tc) := [main_c, main_v12, main_v13, main_c_3, main_v14, main_v15, main_v16, main_v17, main_v18, main_v19, main_c_4, main_v20, main_v21, main_c_5, main_v22, main_v23, main_v24, main_v25, main_v26, main_v27, main_v28]

theorem segN_writes : (segN : List (HloOp τ sig (Elt F))).Forall fun op => op.writes ⊆ (segN_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segN_of (V : Valuation τ sig (Elt F)) (r : Ref sig .tc) (h : r ∉ segN_W) :
    StableHlo.after segN V (Proc.devRef .tc r) = V (Proc.devRef .tc r) :=
  StableHlo.after_of_writes_sub segN V segN_writes h

/-- The first aggregation: every edge's source row of the dense product scaled by the edge's normalisation and summed
    into the edge's destination row. -/
abbrev segB : List (HloOp τ sig (Elt F)) :=
  [ StableHlo.unary main_v27 main_v29 (broadcastInDim S1050000x1 ![0] bcast_S1050000_S1050000x1_0 : (⟨S1050000, .f32⟩ : BufTy).Contents (Elt F) → (⟨S1050000x1, .f32⟩ : BufTy).Contents (Elt F)),
    StableHlo.nullary main_c_6 (constantI S_ 32 0#32),
    StableHlo.unary main_c_6 main_v30 (broadcastInDim S1050000 ![] bcast_S_S1050000 : (⟨S_, .i32⟩ : BufTy).Contents (Elt F) → (⟨S1050000, .i32⟩ : BufTy).Contents (Elt F)),
    StableHlo.binary main_v1 main_v30 main_v31 (cmpi .slt : (⟨S1050000, .i32⟩ : BufTy).Contents (Elt F) → (⟨S1050000, .i32⟩ : BufTy).Contents (Elt F) → (⟨S1050000, .i1⟩ : BufTy).Contents (Elt F)),
    StableHlo.nullary main_c_7 (constantI S_ 32 50000#32),
    StableHlo.unary main_c_7 main_v32 (broadcastInDim S1050000 ![] bcast_S_S1050000 : (⟨S_, .i32⟩ : BufTy).Contents (Elt F) → (⟨S1050000, .i32⟩ : BufTy).Contents (Elt F)),
    StableHlo.binary main_v1 main_v32 main_v33 (addi : (⟨S1050000, .i32⟩ : BufTy).Contents (Elt F) → (⟨S1050000, .i32⟩ : BufTy).Contents (Elt F) → (⟨S1050000, .i32⟩ : BufTy).Contents (Elt F)),
    StableHlo.ternary main_v31 main_v33 main_v1 main_v34 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v34 main_v35 (broadcastInDim S1050000x1 ![0] bcast_S1050000_S1050000x1_0 : (⟨S1050000, .i32⟩ : BufTy).Contents (Elt F) → (⟨S1050000x1, .i32⟩ : BufTy).Contents (Elt F)),
    StableHlo.binary main_v28 main_v35 main_v36 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.unary main_v29 main_v37 (broadcastInDim S1050000x64 ![0, 1] bcast_S1050000x1_S1050000x64_0_1 : (⟨S1050000x1, .f32⟩ : BufTy).Contents (Elt F) → (⟨S1050000x64, .f32⟩ : BufTy).Contents (Elt F)),
    StableHlo.binary main_v37 main_v36 main_v38 (mulf : (⟨S1050000x64, .f32⟩ : BufTy).Contents (Elt F) → (⟨S1050000x64, .f32⟩ : BufTy).Contents (Elt F) → (⟨S1050000x64, .f32⟩ : BufTy).Contents (Elt F)),
    StableHlo.nullary main_cst_8 (constant S_ .f32 0x00000000#32),
    StableHlo.unary main_cst_8 main_v39 (broadcastInDim S50000x64 ![] bcast_S_S50000x64 : (⟨S_, .f32⟩ : BufTy).Contents (Elt F) → (⟨S50000x64, .f32⟩ : BufTy).Contents (Elt F)),
    StableHlo.unary main_v2 main_v40 (broadcastInDim S1050000x1 ![0] bcast_S1050000_S1050000x1_0 : (⟨S1050000, .i32⟩ : BufTy).Contents (Elt F) → (⟨S1050000x1, .i32⟩ : BufTy).Contents (Elt F)),
    StableHlo.ternary main_v39 main_v40 main_v38 main_v41 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)) ]

/-- Each operation of the stretch touches TensorCore references only. -/
theorem segB_sub : (segB : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩

/-- Each operation of the stretch determines its result. -/
theorem segB_fresh : (segB : List (HloOp τ sig (Elt F))).Forall fun op => op.fresh = ∅ := by
  simp only [List.Forall]; repeat' constructor

/-- The references the stretch writes. -/
abbrev segB_W : List (Ref sig .tc) := [main_v29, main_c_6, main_v30, main_v31, main_c_7, main_v32, main_v33, main_v34, main_v35, main_v36, main_v37, main_v38, main_cst_8, main_v39, main_v40, main_v41]

theorem segB_writes : (segB : List (HloOp τ sig (Elt F))).Forall fun op => op.writes ⊆ (segB_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segB_of (V : Valuation τ sig (Elt F)) (r : Ref sig .tc) (h : r ∉ segB_W) :
    StableHlo.after segB V (Proc.devRef .tc r) = V (Proc.devRef .tc r) :=
  StableHlo.after_of_writes_sub segB V segB_writes h

/-- The first layer's bias added, the column means and biased column variances over the 50000 rows (the variance by the
    outlined function, its guard a nested `where`), the normalisation, the affine map and the clip at zero. -/
abbrev segC : List (HloOp τ sig (Elt F)) :=
  [ StableHlo.unary main_arg5 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v43 main_v44 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x00000000#32),
    StableHlo.binary main_v44 main_cst_9 main_v45 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v46 (broadcastInDim S64 ![] bcast_S_S64 : (⟨S_, .f32⟩ : BufTy).Contents (Elt F) → (⟨S64, .f32⟩ : BufTy).Contents (Elt F)),
    StableHlo.binary main_v45 main_v46 main_v47 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary (.of main_call1_cst : StableHlo.TRef sig ⟨S_, .f32⟩) (constant S_ .f32 0x00000000#32),
    StableHlo.TRef.binary (.of main_v44 : StableHlo.TRef sig ⟨S50000x64, .f32⟩) (.of main_call1_cst : StableHlo.TRef sig ⟨S_, .f32⟩) (.of main_call1_v0 : StableHlo.TRef sig ⟨S64, .f32⟩) (fun x v => Host.reduceAdd x v reducesTo_S50000x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S50000x64, .f32⟩) (broadcastInDim S50000x64 ![0, 1] bcast_S1x64_S50000x64_0_1),
    StableHlo.TRef.binary (.of main_v44 : StableHlo.TRef sig ⟨S50000x64, .f32⟩) (.of main_call1_v4 : StableHlo.TRef sig ⟨S50000x64, .f32⟩) (.of main_call1_v5 : StableHlo.TRef sig ⟨S50000x64, .f32⟩) subf,
    StableHlo.TRef.binary (.of main_call1_v5 : StableHlo.TRef sig ⟨S50000x64, .f32⟩) (.of main_call1_v5 : StableHlo.TRef sig ⟨S50000x64, .f32⟩) (.of main_call1_v6 : StableHlo.TRef sig ⟨S50000x64, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x64, .f32⟩) (.of main_call1_cst_2 : StableHlo.TRef sig ⟨S_, .f32⟩) (.of main_call1_v9 : StableHlo.TRef sig ⟨S64, .f32⟩) (fun x v => Host.reduceAdd x v reducesTo_S50000x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v48 : StableHlo.TRef sig ⟨S64, .f32⟩) (fun p a b => select (broadcastInDim S64 ![] bcast_S_S64 p) a b),
    StableHlo.unary main_v47 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v50 main_v51 (subf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v52 (broadcastInDim S64 ![] bcast_S_S64 : (⟨S_, .f32⟩ : BufTy).Contents (Elt F) → (⟨S64, .f32⟩ : BufTy).Contents (Elt F)),
    StableHlo.binary main_v48 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (mulf : (⟨S50000x64, .f32⟩ : BufTy).Contents (Elt F) → (⟨S50000x64, .f32⟩ : BufTy).Contents (Elt F) → (⟨S50000x64, .f32⟩ : BufTy).Contents (Elt F)),
    StableHlo.unary main_arg6 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (mulf : (⟨S50000x64, .f32⟩ : BufTy).Contents (Elt F) → (⟨S50000x64, .f32⟩ : BufTy).Contents (Elt F) → (⟨S50000x64, .f32⟩ : BufTy).Contents (Elt F)),
    StableHlo.unary main_arg7 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v62 main_v63 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x64, .f32⟩) (broadcastInDim S50000x64 ![] bcast_S_S50000x64),
    StableHlo.TRef.binary (.of main_v63 : StableHlo.TRef sig ⟨S50000x64, .f32⟩) (.of main_call2_v0 : StableHlo.TRef sig ⟨S50000x64, .f32⟩) (.of main_v64 : StableHlo.TRef sig ⟨S50000x64, .f32⟩) maximumf ]

/-- Each operation of the stretch touches TensorCore references only. -/
theorem segC_sub : (segC : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each operation of the stretch determines its result. -/
theorem segC_fresh : (segC : List (HloOp τ sig (Elt F))).Forall fun op => op.fresh = ∅ := by
  simp only [List.Forall]; repeat' constructor

/-- The references the stretch writes. -/
abbrev segC_W : List (Ref sig .tc) := [main_v42, main_v43, main_v44, main_cst_9, main_v45, main_cst_10, main_v46, main_v47, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v48, main_v49, main_v50, main_v51, main_cst_12, main_v52, main_v53, main_v54, main_v55, main_v56, main_v57, main_v58, main_v59, main_v60, main_v61, main_v62, main_v63, main_call2_cst, main_call2_v0, main_v64]

theorem segC_writes : (segC : List (HloOp τ sig (Elt F))).Forall fun op => op.writes ⊆ (segC_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segC_of (V : Valuation τ sig (Elt F)) (r : Ref sig .tc) (h : r ∉ segC_W) :
    StableHlo.after segC V (Proc.devRef .tc r) = V (Proc.devRef .tc r) :=
  StableHlo.after_of_writes_sub segC V segC_writes h

/-- The second dense product, its aggregation over the same edges, and the output bias. -/
abbrev segD : List (HloOp τ sig (Elt F)) :=
  [ StableHlo.binary main_v64 main_arg8 main_v65 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_v27 main_v66 (broadcastInDim S1050000x1 ![0] bcast_S1050000_S1050000x1_0 : (⟨S1050000, .f32⟩ : BufTy).Contents (Elt F) → (⟨S1050000x1, .f32⟩ : BufTy).Contents (Elt F)),
    StableHlo.nullary main_c_13 (constantI S_ 32 0#32),
    StableHlo.unary main_c_13 main_v67 (broadcastInDim S1050000 ![] bcast_S_S1050000 : (⟨S_, .i32⟩ : BufTy).Contents (Elt F) → (⟨S1050000, .i32⟩ : BufTy).Contents (Elt F)),
    StableHlo.binary main_v1 main_v67 main_v68 (cmpi .slt : (⟨S1050000, .i32⟩ : BufTy).Contents (Elt F) → (⟨S1050000, .i32⟩ : BufTy).Contents (Elt F) → (⟨S1050000, .i1⟩ : BufTy).Contents (Elt F)),
    StableHlo.nullary main_c_14 (constantI S_ 32 50000#32),
    StableHlo.unary main_c_14 main_v69 (broadcastInDim S1050000 ![] bcast_S_S1050000 : (⟨S_, .i32⟩ : BufTy).Contents (Elt F) → (⟨S1050000, .i32⟩ : BufTy).Contents (Elt F)),
    StableHlo.binary main_v1 main_v69 main_v70 (addi : (⟨S1050000, .i32⟩ : BufTy).Contents (Elt F) → (⟨S1050000, .i32⟩ : BufTy).Contents (Elt F) → (⟨S1050000, .i32⟩ : BufTy).Contents (Elt F)),
    StableHlo.ternary main_v68 main_v70 main_v1 main_v71 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v71 main_v72 (broadcastInDim S1050000x1 ![0] bcast_S1050000_S1050000x1_0 : (⟨S1050000, .i32⟩ : BufTy).Contents (Elt F) → (⟨S1050000x1, .i32⟩ : BufTy).Contents (Elt F)),
    StableHlo.binary main_v65 main_v72 main_v73 ((fun x i => Host.gather gather_S50000x128_S1050000x1_S1050000x128_1_0_n_n_0_1_1128 x i) : (⟨S50000x128, .f32⟩ : BufTy).Contents (Elt F) → (⟨S1050000x1, .i32⟩ : BufTy).Contents (Elt F) → (⟨S1050000x128, .f32⟩ : BufTy).Contents (Elt F)),
    StableHlo.unary main_v66 main_v74 (broadcastInDim S1050000x128 ![0, 1] bcast_S1050000x1_S1050000x128_0_1 : (⟨S1050000x1, .f32⟩ : BufTy).Contents (Elt F) → (⟨S1050000x128, .f32⟩ : BufTy).Contents (Elt F)),
    StableHlo.binary main_v74 main_v73 main_v75 (mulf : (⟨S1050000x128, .f32⟩ : BufTy).Contents (Elt F) → (⟨S1050000x128, .f32⟩ : BufTy).Contents (Elt F) → (⟨S1050000x128, .f32⟩ : BufTy).Contents (Elt F)),
    StableHlo.nullary main_cst_15 (constant S_ .f32 0x00000000#32),
    StableHlo.unary main_cst_15 main_v76 (broadcastInDim S50000x128 ![] bcast_S_S50000x128 : (⟨S_, .f32⟩ : BufTy).Contents (Elt F) → (⟨S50000x128, .f32⟩ : BufTy).Contents (Elt F)),
    StableHlo.unary main_v2 main_v77 (broadcastInDim S1050000x1 ![0] bcast_S1050000_S1050000x1_0 : (⟨S1050000, .i32⟩ : BufTy).Contents (Elt F) → (⟨S1050000x1, .i32⟩ : BufTy).Contents (Elt F)),
    StableHlo.ternary main_v76 main_v77 main_v75 main_v78 ((fun x i u => Host.scatterAdd scatter_S50000x128_S1050000x1_S1050000x128_1_0_0_1 x i u) : (⟨S50000x128, .f32⟩ : BufTy).Contents (Elt F) → (⟨S1050000x1, .i32⟩ : BufTy).Contents (Elt F) → (⟨S1050000x128, .f32⟩ : BufTy).Contents (Elt F) → (⟨S50000x128, .f32⟩ : BufTy).Contents (Elt F)),
    StableHlo.unary main_arg9 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (addf : (⟨S50000x128, .f32⟩ : BufTy).Contents (Elt F) → (⟨S50000x128, .f32⟩ : BufTy).Contents (Elt F) → (⟨S50000x128, .f32⟩ : BufTy).Contents (Elt F)) ]

/-- Each operation of the stretch touches TensorCore references only. -/
theorem segD_sub : (segD : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Each operation of the stretch determines its result. -/
theorem segD_fresh : (segD : List (HloOp τ sig (Elt F))).Forall fun op => op.fresh = ∅ := by
  simp only [List.Forall]; repeat' constructor

/-- The references the stretch writes. -/
abbrev segD_W : List (Ref sig .tc) := [main_v65, main_v66, main_c_13, main_v67, main_v68, main_c_14, main_v69, main_v70, main_v71, main_v72, main_v73, main_v74, main_v75, main_cst_15, main_v76, main_v77, main_v78, main_v79, main_v80, main_v81]

theorem segD_writes : (segD : List (HloOp τ sig (Elt F))).Forall fun op => op.writes ⊆ (segD_W.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the stretch does not write keeps its contents. -/
theorem segD_of (V : Valuation τ sig (Elt F)) (r : Ref sig .tc) (h : r ∉ segD_W) :
    StableHlo.after segD V (Proc.devRef .tc r) = V (Proc.devRef .tc r) :=
  StableHlo.after_of_writes_sub segD V segD_writes h

/-- @main's operations in order, the three calls unfolded. -/
abbrev ops : List (HloOp τ sig (Elt F)) := seg0 ++ (segA ++ (segW ++ (segN ++ (segB ++ (segC ++ segD)))))

theorem ops_sub : (ops : List (HloOp τ sig (Elt F))).Forall fun op => op.bufs ⊆ StableHlo.tcRefs τ sig :=
  forall_append seg0_sub (forall_append segA_sub (forall_append segW_sub (forall_append segN_sub (forall_append segB_sub (forall_append segC_sub segD_sub)))))

theorem ops_fresh : (ops : List (HloOp τ sig (Elt F))).Forall fun op => op.fresh = ∅ :=
  forall_append seg0_fresh (forall_append segA_fresh (forall_append segW_fresh (forall_append segN_fresh (forall_append segB_fresh (forall_append segC_fresh segD_fresh)))))

/-- The contents after the whole line are the stretches' folds composed. -/
theorem after_ops (V : Valuation τ sig (Elt F)) :
    StableHlo.after ops V = StableHlo.after segD (StableHlo.after segC (StableHlo.after segB (StableHlo.after segN (StableHlo.after segW (StableHlo.after segA (StableHlo.after seg0 V)))))) := by
  rw [StableHlo.after_append, StableHlo.after_append, StableHlo.after_append, StableHlo.after_append, StableHlo.after_append, StableHlo.after_append]

end Cert.RefSide

end
-- ==== Proof.RefMain.lean ====
/-
  The reference program runs as its straight line of operations: @main, with its three calls replaced by the
  callees' bodies, is the 125 operations in order, so from any launch memory with zero counters every weakly
  fair execution terminates and leaves each buffer at the operations' fold over the launch contents.
-/
import proofs.«114351_j46617575030954_2_alg».proof.Proof.RefOps

noncomputable section

namespace Cert.RefSide

open Idealize.ShloMosaic Idealize.ShloMosaic.TcCoe Idealize.SL.Sem Cert.ReferenceIdeal
open Cert.ReferenceIdeal.Facts₀ Cert.ReferenceIdeal.Facts

variable {F : FTy → Type} [FloatOps F]

-- 125 sequencing steps re-associated: the rewrite under the chain recurses once per statement
set_option maxRecDepth 4096 in
set_option maxHeartbeats 4000000 in
/-- @main is the straight line: with the callees' definitions unfolded at their calls and the calls' buffer
    records at their fields, both sides are one chain of operation steps once sequencing is re-associated. -/
theorem main_eq (c : Dev nD) : main (F := F) c = StableHlo.seq ops := by
  simp only [main, main_part0, main_part1, fn_where.body, fn_var.body, fn_where_0.body, fn_relu.body,
    ops, seg0, segA, segW, segN, segB, segC, segD, List.cons_append, List.nil_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main on the TensorCore terminates, and
    every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

end Cert.RefSide

end
-- ==== Proof.RefVal.lean ====
/-
  What each stretch of the reference program's operations leaves in the buffers later stretches read, as the
  shared specification's functions of the buffers it reads. Each is the stretch's fold unrolled at one buffer:
  every operation's result at its own buffer is its function of its operands' contents, at any other buffer what
  was there; the composed term is the specification's function by unfolding. The large-array operations (the
  scatter-adds, gathers, reductions and concatenations) are kept folded throughout: the equations never look
  inside them.
-/
import proofs.«114351_j46617575030954_2_alg».proof.Proof.RefOps
import proofs.«114351_j46617575030954_2_alg».proof.Proof.Spec

noncomputable section

namespace Cert.RefSide

open Idealize.ShloMosaic Idealize.ShloMosaic.TcCoe Idealize.ShloMosaic.StableHlo Idealize.SL.Sem Cert.ReferenceIdeal
open Cert.ReferenceIdeal.Facts₀ Cert.ReferenceIdeal.Facts

attribute [local irreducible] Host.scatterAdd Host.gather Host.reduceAdd concatenate

/-! ## The pieces of the edge normalisation

The program computes `d^{-1/2}` in three steps that are separate buffers: the test `d > 0`, the inverse square
root of `d`, and the choice between it and zero; then gathers it at both endpoints of every edge. -/

/-- Where the weighted in-degree is positive. -/
def degPos (d : IVec S1050000 32) (w : FVec Ideal S1050000 .f32) : IVec S50000 1 :=
  cmpf .ogt (Cert.Spec.deg d w) (broadcastInDim S50000 ![] bcast_S_S50000 (constant S_ .f32 0x00000000#32))

/-- The inverse square root of the weighted in-degree, wherever it is taken. -/
def degRsqrt (d : IVec S1050000 32) (w : FVec Ideal S1050000 .f32) : FVec Ideal S50000 .f32 :=
  Host.rsqrt (Cert.Spec.deg d w)

/-- The scalar zero. -/
def zero0 : FVec Ideal S_ .f32 := constant S_ .f32 0x00000000#32

/-- `a` where `p` holds, the scalar `z` elsewhere. -/
def pick (p : IVec S50000 1) (a : FVec Ideal S50000 .f32) (z : FVec Ideal S_ .f32) : FVec Ideal S50000 .f32 :=
  select p a (broadcastInDim S50000 ![] bcast_S_S50000 (id z))

/-- Every edge's weight scaled by a node vector `g` at the edge's source and at its destination. -/
def scaled (g : FVec Ideal S50000 .f32) (s d : IVec S1050000 32) (w : FVec Ideal S1050000 .f32) : FVec Ideal S1050000 .f32 :=
  mulf (mulf (Host.gather gather_S50000_S1050000x1_S1050000_n_0_n_n_0_1_1 g (Cert.Spec.col (Cert.Spec.wrap s))) w)
    (Host.gather gather_S50000_S1050000x1_S1050000_n_0_n_n_0_1_1 g (Cert.Spec.col (Cert.Spec.wrap d)))

/-- The specification's normalisation is those pieces composed. -/
theorem norm_eq (s d : IVec S1050000 32) (w : FVec Ideal S1050000 .f32) :
    Cert.Spec.norm s d w = scaled (pick (degPos d w) (degRsqrt d w) zero0) s d w := rfl

/-! ## The edge list with its self-loops

The operands of a concatenation sit in a list of shape-tagged pairs, under which the results are read off by
unfolding the fold rather than by rewriting. -/

theorem seg0_v1 (V : Valuation τ sig (Elt Ideal)) :
    after seg0 V (Proc.devRef .tc main_v1) = Cert.Spec.withLoops (V (Proc.devRef .tc main_arg1)) := by
  after_results_simp
  rfl

theorem seg0_v2 (V : Valuation τ sig (Elt Ideal)) :
    after seg0 V (Proc.devRef .tc main_v2) = Cert.Spec.withLoops (V (Proc.devRef .tc main_arg2)) := by
  after_results_simp
  rfl

theorem seg0_v4 (V : Valuation τ sig (Elt Ideal)) :
    after seg0 V (Proc.devRef .tc main_v4) = Cert.Spec.edgeW (V (Proc.devRef .tc main_arg3)) := by
  after_results_simp
  rfl

/-! ## The in-degree, its test and its inverse square root -/

theorem segA_v9 (V : Valuation τ sig (Elt Ideal)) :
    after segA V (Proc.devRef .tc main_v9) = degPos (V (Proc.devRef .tc main_v2)) (V (Proc.devRef .tc main_v4)) := by
  after_results_simp
  rfl

theorem segA_v10 (V : Valuation τ sig (Elt Ideal)) :
    after segA V (Proc.devRef .tc main_v10) = degRsqrt (V (Proc.devRef .tc main_v2)) (V (Proc.devRef .tc main_v4)) := by
  after_results_simp
  rfl

theorem segA_cst_2 (V : Valuation τ sig (Elt Ideal)) :
    after segA V (Proc.devRef .tc main_cst_2) = zero0 := by
  after_results_simp
  rfl

/-! ## The choice between the inverse square root and zero -/

theorem segW_v11 (V : Valuation τ sig (Elt Ideal)) :
    after segW V (Proc.devRef .tc main_v11)
      = pick (V (Proc.devRef .tc main_v9)) (V (Proc.devRef .tc main_v10)) (V (Proc.devRef .tc main_cst_2)) := by
  after_results_simp
  rfl

/-! ## The normalisation of every edge and the first dense product -/

theorem segN_v27 (V : Valuation τ sig (Elt Ideal)) :
    after segN V (Proc.devRef .tc main_v27)
      = scaled (V (Proc.devRef .tc main_v11)) (V (Proc.devRef .tc main_v1)) (V (Proc.devRef .tc main_v2)) (V (Proc.devRef .tc main_v4)) := by
  after_results_simp
  rfl

theorem segN_v28 (V : Valuation τ sig (Elt Ideal)) :
    after segN V (Proc.devRef .tc main_v28) = Cert.Spec.mm1 (V (Proc.devRef .tc main_arg0)) (V (Proc.devRef .tc main_arg4)) := by
  after_results_simp
  rfl

/-! ## The first aggregation -/

set_option maxRecDepth 4096 in
theorem segB_v41 (V : Valuation τ sig (Elt Ideal)) :
    after segB V (Proc.devRef .tc main_v41)
      = Cert.Spec.conv64 (V (Proc.devRef .tc main_v1)) (V (Proc.devRef .tc main_v2)) (V (Proc.devRef .tc main_v27)) (V (Proc.devRef .tc main_v28)) := by
  after_results_simp
  rfl

/-! ## The batch normalisation -/

set_option maxRecDepth 8192 in
theorem segC_v64 (V : Valuation τ sig (Elt Ideal)) :
    after segC V (Proc.devRef .tc main_v64)
      = Cert.Spec.bnR (V (Proc.devRef .tc main_v41)) (V (Proc.devRef .tc main_arg5)) (V (Proc.devRef .tc main_arg6)) (V (Proc.devRef .tc main_arg7)) := by
  after_results_simp
  rfl

/-! ## The second dense product and aggregation -/

set_option maxRecDepth 4096 in
theorem segD_v81 (V : Valuation τ sig (Elt Ideal)) :
    after segD V (Proc.devRef .tc main_v81)
      = Cert.Spec.out128 (V (Proc.devRef .tc main_v1)) (V (Proc.devRef .tc main_v2)) (V (Proc.devRef .tc main_v27))
          (Cert.Spec.mm2 (V (Proc.devRef .tc main_v64)) (V (Proc.devRef .tc main_arg8))) (V (Proc.devRef .tc main_arg9)) := by
  after_results_simp
  rfl

end Cert.RefSide

end
-- ==== Proof.RefRun.lean ====
/-
  The reference program's run and value: from any launch memory with zero counters every weakly fair execution
  terminates with the result buffer at the specification's function `refG` of the ten arguments' launch contents,
  and the arguments unchanged.

  The line of operations is seven stretches in a row. Read from the end: the last leaves the result at the second
  aggregation of the second dense product of the normalised rows; the one before leaves the normalised rows at the
  batch normalisation of the first aggregation; before it the first aggregation; before it the edges'
  normalisation (from the inverse square root of the in-degree, chosen against zero by the degree's test) and the
  first dense product; and first of all the edge list with its self-loops. A buffer a stretch does not write
  passes through it, so the values compose to `refG` of the arguments, which no stretch writes.
-/
import proofs.«114351_j46617575030954_2_alg».proof.Proof.RefMain
import proofs.«114351_j46617575030954_2_alg».proof.Proof.RefVal

noncomputable section

namespace Cert.RefSide

open Idealize.ShloMosaic Idealize.ShloMosaic.TcCoe Idealize.ShloMosaic.StableHlo Idealize.SL.Sem Cert.ReferenceIdeal
open Cert.ReferenceIdeal.Facts₀ Cert.ReferenceIdeal.Facts

/-- A buffer none of the seven stretches writes holds after the whole line what it held before. -/
theorem ops_of (V : Valuation τ sig (Elt Ideal)) (r : Ref sig .tc) (h0 : r ∉ seg0_W) (hA : r ∉ segA_W) (hW : r ∉ segW_W)
    (hN : r ∉ segN_W) (hB : r ∉ segB_W) (hC : r ∉ segC_W) (hD : r ∉ segD_W) :
    after ops V (Proc.devRef .tc r) = V (Proc.devRef .tc r) := by
  rw [after_ops, segD_of _ r hD, segC_of _ r hC, segB_of _ r hB, segN_of _ r hN, segW_of _ r hW, segA_of _ r hA,
    seg0_of _ r h0]

/-- The result buffer after the whole line is `refG` of the arguments' contents before it. -/
theorem ops_v81 (V : Valuation τ sig (Elt Ideal)) :
    after ops V (Proc.devRef .tc main_v81)
      = Cert.Spec.refG (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, segD_v81,
    segC_of _ main_v1 (by decide), segC_of _ main_v2 (by decide), segC_of _ main_v27 (by decide), segC_v64,
    segC_of _ main_arg8 (by decide), segC_of _ main_arg9 (by decide),
    segB_of _ main_v1 (by decide), segB_of _ main_v2 (by decide), segB_of _ main_v27 (by decide), segB_v41,
    segB_of _ main_arg5 (by decide), segB_of _ main_arg6 (by decide), segB_of _ main_arg7 (by decide), segB_of _ main_arg8 (by decide), segB_of _ main_arg9 (by decide),
    segN_of _ main_v1 (by decide), segN_of _ main_v2 (by decide), segN_v27, segN_v28,
    segN_of _ main_arg5 (by decide), segN_of _ main_arg6 (by decide), segN_of _ main_arg7 (by decide), segN_of _ main_arg8 (by decide), segN_of _ main_arg9 (by decide),
    segW_of _ main_v1 (by decide), segW_of _ main_v2 (by decide), segW_of _ main_v4 (by decide), segW_v11,
    segW_of _ main_arg0 (by decide), segW_of _ main_arg4 (by decide), segW_of _ main_arg5 (by decide), segW_of _ main_arg6 (by decide), segW_of _ main_arg7 (by decide), segW_of _ main_arg8 (by decide), segW_of _ main_arg9 (by decide),
    segA_of _ main_v1 (by decide), segA_of _ main_v2 (by decide), segA_of _ main_v4 (by decide), segA_v9, segA_v10, segA_cst_2,
    segA_of _ main_arg0 (by decide), segA_of _ main_arg4 (by decide), segA_of _ main_arg5 (by decide), segA_of _ main_arg6 (by decide), segA_of _ main_arg7 (by decide), segA_of _ main_arg8 (by decide), segA_of _ main_arg9 (by decide),
    seg0_v1, seg0_v2, seg0_v4,
    seg0_of _ main_arg0 (by decide), seg0_of _ main_arg4 (by decide), seg0_of _ main_arg5 (by decide), seg0_of _ main_arg6 (by decide), seg0_of _ main_arg7 (by decide), seg0_of _ main_arg8 (by decide), seg0_of _ main_arg9 (by decide),
    ← norm_eq]
  rfl

/-- From any memory with zero counters every weakly fair execution of the reference program terminates with the
    result at `refG` of the arguments' launch contents and the ten arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v81)
        = Cert.Spec.refG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v81).trans (ops_v81 _),
      (h c main_arg0).trans (ops_of _ main_arg0 (by decide) (by decide) (by decide) (by decide) (by decide) (by decide) (by decide)),
      (h c main_arg1).trans (ops_of _ main_arg1 (by decide) (by decide) (by decide) (by decide) (by decide) (by decide) (by decide)),
      (h c main_arg2).trans (ops_of _ main_arg2 (by decide) (by decide) (by decide) (by decide) (by decide) (by decide) (by decide)),
      (h c main_arg3).trans (ops_of _ main_arg3 (by decide) (by decide) (by decide) (by decide) (by decide) (by decide) (by decide)),
      (h c main_arg4).trans (ops_of _ main_arg4 (by decide) (by decide) (by decide) (by decide) (by decide) (by decide) (by decide)),
      (h c main_arg5).trans (ops_of _ main_arg5 (by decide) (by decide) (by decide) (by decide) (by decide) (by decide) (by decide)),
      (h c main_arg6).trans (ops_of _ main_arg6 (by decide) (by decide) (by decide) (by decide) (by decide) (by decide) (by decide)),
      (h c main_arg7).trans (ops_of _ main_arg7 (by decide) (by decide) (by decide) (by decide) (by decide) (by decide) (by decide)),
      (h c main_arg8).trans (ops_of _ main_arg8 (by decide) (by decide) (by decide) (by decide) (by decide) (by decide) (by decide)),
      (h c main_arg9).trans (ops_of _ main_arg9 (by decide) (by decide) (by decide) (by decide) (by decide) (by decide) (by decide))⟩)
    (run_main m ρ)

end Cert.RefSide

end
-- ==== Proof.Assemble.lean ====
/-
  The two programs compute one function, and the five claims.

  Both results are the second graph convolution of the second dense product of the normalised rows; the normalised rows
  are the batch normalisation of the first aggregation, taken with the bias added first by one program and with the mean
  corrected afterwards by the other. With a finite bias the two normalisations are the same table, so the results agree.
  The precondition makes every float input finite, the bias among them. Each program's run ends with its result at its
  own function of its arguments and with the arguments as launched; from memories that agree on the arguments the two
  results are therefore equal.
-/
import proofs.«114351_j46617575030954_2_alg».proof.Defs
import proofs.«114351_j46617575030954_2_alg».proof.Proof.Gen.Kernel.Frame
import proofs.«114351_j46617575030954_2_alg».proof.Proof.Gen.KernelIdeal.Frame
import proofs.«114351_j46617575030954_2_alg».proof.Proof.Gen.ReferenceIdeal
import proofs.«114351_j46617575030954_2_alg».proof.Proof.Gen.Pre_finite_inputs
import proofs.«114351_j46617575030954_2_alg».proof.Proof.Spec
import proofs.«114351_j46617575030954_2_alg».proof.Proof.Bridge
import proofs.«114351_j46617575030954_2_alg».proof.Proof.Finite
import proofs.«114351_j46617575030954_2_alg».proof.Proof.KerRun
import proofs.«114351_j46617575030954_2_alg».proof.Proof.KerValue
import proofs.«114351_j46617575030954_2_alg».proof.Proof.RefRun

noncomputable section

namespace Cert.Assemble

open Idealize.ShloMosaic Idealize.SL.Sem Cert.ReferenceIdeal Cert.Spec

/-- The two programs' results are one function of the ten arguments once the first layer's bias is finite: they differ
    only in the normalisation layer between the two graph convolutions, and there the two layers are the same table. -/
theorem kerG_eq_refG (a0 : FVec Ideal S50000x128 .f32) (a1 a2 : IVec S1000000 32) (a3 : FVec Ideal S1000000 .f32)
    (a4 : FVec Ideal S128x64 .f32) (a5 a6 a7 : FVec Ideal S64 .f32) (a8 : FVec Ideal S64x128 .f32) (a9 : FVec Ideal S128 .f32)
    (h5 : ∀ j, ∃ r : ℝ, a5 j = (r : EReal)) :
    Cert.Spec.kerG a0 a1 a2 a3 a4 a5 a6 a7 a8 a9 = Cert.Spec.refG a0 a1 a2 a3 a4 a5 a6 a7 a8 a9 := by
  unfold kerG refG
  rw [Cert.Bridge.bn_eq _ a5 a6 a7 h5]

/-! ## The five claims -/

/-- The kernel program as printed runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference program runs and leaves its arguments as launched: its run with the result's value dropped. -/
theorem frame_ri : Cert.frame_ReferenceIdeal := fun m ρ _ =>
  (θ_run Cert.ReferenceIdeal.defs _ _).mono (fun _ h c => (h c).2) (Cert.RefSide.run m ρ)

/-- Reading the kernel program on the extended reals rewrote no operation. -/
theorem preserves : Cert.preserves_Kernel_KernelIdeal := trivial

/-- From memories that agree on the ten arguments both programs run, leave the arguments as launched, and end with the
    same result: the kernel program's result is `kerG` of its arguments, the reference's is `refG` of its own, the
    arguments agree, and `kerG = refG` where the first layer's bias is finite, which the precondition gives. -/
theorem algebraic : Cert.algebraic_KernelIdeal_ReferenceIdeal := by
  intro m ρ m' ρ' hpre hagree
  refine ⟨fun c => Cert.Spec.refG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)), ?_, Cert.RefSide.run m' ρ'⟩
  refine (θ_run Cert.KernelIdeal.defs _ _).mono (fun _ h c => ⟨(h c).1.trans ?_, (h c).2⟩) (Cert.KerSide.run (F := Ideal) m ρ)
  obtain ⟨e0, e1, e2, e3, e4, e5, e6, e7, e8, e9⟩ := hagree c
  beta_reduce
  rw [e0, e1, e2, e3, e4, e5, e6, e7, e8, e9]
  exact (Cert.KerSide.result_eq m ρ c).trans (kerG_eq_refG _ _ _ _ _ _ _ _ _ _ (Cert.Finite.b1_real m hpre c))

end Cert.Assemble

end
-- ==== Proof.lean ====
/-
  A two-layer graph convolution network with a batch normalisation between the layers, computed by two programs.

  A graph convolution layer is a dense product `P = X · W` followed by an aggregation over the edges (the given edges and
  one self-loop per node): row `src e` of `P`, scaled by the edge's symmetric normalisation
  `d^{-1/2}[src e] · w e · d^{-1/2}[dst e]` (`d` the weighted in-degree, `0` in place of `d^{-1/2}` where `d ≤ 0`), is
  summed into row `dst e`. Between the two layers the 50000 rows are normalised column by column (mean and biased
  variance over the rows, reciprocal square root of the variance plus a small constant), scaled, shifted and clipped at
  zero. One program does the dense products, the normalisation and the clip in three kernels over blocks of rows and the
  rest in host operations; the other is host operations throughout.

  On the extended reals every operation is exact, so each program's result is a closed function of the ten argument
  arrays, and the two functions are built from the same pieces except in one place: one program adds the first layer's
  bias `b` to the aggregated rows `A` before taking the column statistics, the other takes the statistics of `A` and
  adds `b` to the mean afterwards. For a finite `b` these agree whatever `A` holds: the column sums of `A + b` are those
  of `A` plus `50000 · b`, so the means differ by exactly `b`; then `(A + b) − (mean A + b) = A − mean A`, so the
  deviations, and with them the variances, are the same. The precondition (every float input finite) gives the finite
  bias. Hence from memories that agree on the arguments both programs end with equal results and unchanged arguments;
  the kernel program as printed, and read on the extended reals, terminates with its arguments unchanged; and reading
  it on the extended reals rewrote no operation.
-/
import proofs.«114351_j46617575030954_2_alg».proof.Defs
import proofs.«114351_j46617575030954_2_alg».proof.Proof.Gen.Kernel
import proofs.«114351_j46617575030954_2_alg».proof.Proof.Gen.Kernel.Skeleton
import proofs.«114351_j46617575030954_2_alg».proof.Proof.Gen.Kernel.Launch
import proofs.«114351_j46617575030954_2_alg».proof.Proof.Gen.Kernel.Points
import proofs.«114351_j46617575030954_2_alg».proof.Proof.Gen.Kernel.Frame
import proofs.«114351_j46617575030954_2_alg».proof.Proof.Gen.KernelIdeal
import proofs.«114351_j46617575030954_2_alg».proof.Proof.Gen.KernelIdeal.Skeleton
import proofs.«114351_j46617575030954_2_alg».proof.Proof.Gen.KernelIdeal.Launch
import proofs.«114351_j46617575030954_2_alg».proof.Proof.Gen.KernelIdeal.Points
import proofs.«114351_j46617575030954_2_alg».proof.Proof.Gen.KernelIdeal.Frame
import proofs.«114351_j46617575030954_2_alg».proof.Proof.Gen.ReferenceIdeal
import proofs.«114351_j46617575030954_2_alg».proof.Proof.Gen.Pre_finite_inputs
import Idealize.ShloMosaic.Adequacy
import Idealize.ShloMosaic.Init
import proofs.«114351_j46617575030954_2_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Assemble.frame_k, Cert.Assemble.frame_ki, Cert.Assemble.frame_ri, Cert.Assemble.preserves, Cert.Assemble.algebraic⟩

end Cert.Proof

end
